-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x512 .f32) (main_arg5 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x512 .f32) (main_arg3 : FVec F S512 .f32) (main_arg4 : FVec F S256x512 .f32) (main_arg5 : FVec F S256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S1000x512 : Shape := ⟨2, ![1000, 512]⟩
abbrev S1x512 : Shape := ⟨2, ![1, 512]⟩
abbrev S1x256 : Shape := ⟨2, ![1, 256]⟩
abbrev S10000x256 : Shape := ⟨2, ![10000, 256]⟩
abbrev S400x10000 : Shape := ⟨2, ![400, 10000]⟩
abbrev S400x512 : Shape := ⟨2, ![400, 512]⟩
abbrev S400x256 : Shape := ⟨2, ![400, 256]⟩
abbrev S400 : Shape := ⟨1, ![400]⟩
abbrev S400x1 : Shape := ⟨2, ![400, 1]⟩

abbrev nBuf : Space → Nat
  | .hbm => 11
  | .vmem => 15
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S10000x512, .bf16⟩
  | .hbm, ⟨7, _⟩ => ⟨S1x512, .f32⟩
  | .hbm, ⟨8, _⟩ => ⟨S1x256, .f32⟩
  | .hbm, ⟨9, _⟩ => ⟨S10000x512, .f32⟩
  | .hbm, ⟨10, _⟩ => ⟨S10000x256, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x512, .bf16⟩
  | .local _ .vmem, ⟨4, _⟩ => ⟨S1000x512, .bf16⟩
  | .local _ .vmem, ⟨5, _⟩ => ⟨S400x10000, .f32⟩
  | .local _ .vmem, ⟨6, _⟩ => ⟨S400x10000, .f32⟩
  | .local _ .vmem, ⟨7, _⟩ => ⟨S10000x512, .bf16⟩
  | .local _ .vmem, ⟨8, _⟩ => ⟨S1x512, .f32⟩
  | .local _ .vmem, ⟨9, _⟩ => ⟨S256x512, .f32⟩
  | .local _ .vmem, ⟨10, _⟩ => ⟨S1x256, .f32⟩
  | .local _ .vmem, ⟨11, _⟩ => ⟨S400x512, .f32⟩
  | .local _ .vmem, ⟨12, _⟩ => ⟨S400x512, .f32⟩
  | .local _ .vmem, ⟨13, _⟩ => ⟨S400x256, .f32⟩
  | .local _ .vmem, ⟨14, _⟩ => ⟨S400x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S1000x512_S1000x512_0_0 : (Rect.unit (s := S1000x512) ![0, 0] S1000x512.size inb_S1000x512_S1000x512_0_0).PackedRows (EltTy.packing .bf16)
  shapeCasts_S512_S1x512 : S512.ShapeCasts S1x512
  shapeCasts_S256_S1x256 : S256.ShapeCasts S1x256
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S400x512_S400x512_0_0 : ∀ a, (![0, 0] : Fin 2 → Nat) a + S400x512.size a ≤ S400x512.size a
  h_S400x512 : 0 < S400x512.numel
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  reduces_S400x256_S400 : S400x256.Reduces [1] S400
  shapeCasts_S400_S400x1 : S400.ShapeCasts S400x1
  broadcasts_S400x1_S400x256 : S400x1.Broadcasts S400x256
  inb_S400x256_S400x256_0_0 : ∀ a, (![0, 0] : Fin 2 → Nat) a + S400x256.size a ≤ S400x256.size a
  h_S400x256 : 0 < S400x256.numel
  dot_S1000x512_S512x512_S1000x512_1_0_0_1_n_n_wf : DotDims.WF S1000x512 S512x512 S1000x512 [1] [0] [0] [1] [] []
  dot_S400x10000_S10000x512_S400x512_1_0_0_1_n_n_wf : DotDims.WF S400x10000 S10000x512 S400x512 [1] [0] [0] [1] [] []
  dot_S400x512_S256x512_S400x256_1_1_0_0_n_n_wf : DotDims.WF S400x512 S256x512 S400x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .bf16 = 32 ∨ (Rect.block (s := S10000x512) S1000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .f32 = 32 ∨ (Rect.block (s := S256x512) S256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x512.size a ≤ S10000x512.size a
  hwx1_5 : ∀ i : grid1.Coords, EltTy.bits .f32 = 32 ∨ (Rect.block (s := S10000x512) S400x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x256.size a ≤ S10000x256.size a
  hwx1_6 : ∀ i : grid1.Coords, EltTy.bits .f32 = 32 ∨ (Rect.block (s := S10000x256) S400x256.size (cc1_transform_6 i) (hinb1_6 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S256x512_S400x256_1_1_0_0_n_n : DotDims S400x512 S256x512 S400x256 where
  lhsContracting := [1]
  rhsContracting := [1]
  lhsNonContracting := [0]
  rhsNonContracting := [0]
  lhsBatch := []
  rhsBatch := []
  wf := dot_S400x512_S256x512_S400x256_1_1_0_0_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S400x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S400x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S1x512 : Shape := ⟨2, ![1, 512]⟩
abbrev S_ : Shape := ⟨0, ![]⟩
abbrev S512x256 : Shape := ⟨2, ![512, 256]⟩
abbrev S10000x256 : Shape := ⟨2, ![10000, 256]⟩
abbrev S1x256 : Shape := ⟨2, ![1, 256]⟩
abbrev S10000 : Shape := ⟨1, ![10000]⟩
abbrev S10000x1 : Shape := ⟨2, ![10000, 1]⟩

abbrev nBuf : Space → Nat
  | .hbm => 33
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S512x256, .f32⟩
  | .hbm, ⟨15, _⟩ => ⟨S10000x256, .f32⟩
  | .hbm, ⟨16, _⟩ => ⟨S1x256, .f32⟩
  | .hbm, ⟨17, _⟩ => ⟨S10000x256, .f32⟩
  | .hbm, ⟨18, _⟩ => ⟨S10000x256, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x256, .f32⟩
  | .hbm, ⟨26, _⟩ => ⟨S10000x256, .f32⟩
  | .hbm, ⟨27, _⟩ => ⟨S10000x256, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x256, .f32⟩
  | .hbm, ⟨32, _⟩ => ⟨S10000x256, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  transposes_S256x512_S512x256_1_0 : S256x512.Transposes [1, 0] S512x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S10000_d1 : S10000x256.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []
  dot_S10000x512_S512x256_S10000x256_1_0_0_1_n_n_wf : DotDims.WF S10000x512 S512x256 S10000x256 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.KernelRun.lean ====
/-
  The idealized kernel program's run with its two result arrays named. The program is two pipelined regions with two
  reshapes between them; every weakly fair execution of it terminates without a fault, and in the final state the
  first result array holds what the second region's write-backs of its sixth window leave, the second what those of
  its seventh window leave (the fold of the written-back blocks over the array as the region found it), while the six
  argument arrays are as launched. The run is the launch theorem for a program of several regions applied to the
  program's segments; the final thread state holds every unscoped buffer at the last boundary's contents, and the two
  result arrays are read there as two of the second region's arrays.
-/
import proofs.«110309_g65816078844311_cont_sun_m_909_18_alg».proof.Proof.Gen.KernelIdeal.Frame

set_option maxRecDepth 16384

noncomputable section

namespace Cert.KernelIdeal.OutRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result arrays end at what the
    second region's write-backs leave in its sixth and seventh windows' arrays, the arguments as launched. -/
theorem run_named : θ_run defs (onTc (τ := τ) (main (F := F))) ⟨m, fun _ => 0, ρ⟩ (fun r => ∀ c : Dev nD,
      r.2.mem ((c.tc : Thread nD τ).loc main_v3_0) = (dat1 (V2 m ρ) c).arrAt 5 cfg1.N
      ∧ r.2.mem ((c.tc : Thread nD τ).loc main_v3_1) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3_0 (by decide))).trans (W3_arr m ρ c 5),
       (h c _ (mem_uc main_v3_1 (by decide))).trans (W3_arr m ρ c 6),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.OutRun

end
-- ==== Proof.LibKernelIdx.lean ====
/-
  Operations of a kernel body read at an index given by coordinates: the two keepdims column layout forms
  (a vector made a column, [a] → [a, 1], and a column repeated along the lanes, [a, 1] → [a, b]), a lane sum of a
  matrix read at a row, and a matrix product accumulated into the zero splat read at an entry. General in the
  extents; the arithmetic ones at the ideal values, where a float is an extended real.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKernelIdx

open Idealize.ShloMosaic Idealize.ShloMosaic.ValueIdx

variable {α : Type}

/-! ## The keepdims column forms -/

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p` (its unit coordinate
    written `u`, whatever it is). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## A lane sum at a row -/

/-- The sum of an `[a, b]` matrix along its second axis, read at row `p`, is the sum of that row's entries. The
    accumulator's side condition is typed as a program spells it, an equation between two zero words. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-! ## A matrix product at an entry -/

/-- The product of an `[m, k]` by a `[k, n]` matrix (the left operand's second axis contracted with the right
    operand's first, no batch axes) accumulated into the zero splat, read at `(p, j)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 p j)
      = ∑ c : Fin k, A (ix2 p c) * B (ix2 c j) := by
  show FloatOps.matmul _ prec A B _ (ix2 p j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibKernelIdx

end
-- ==== Proof.LibMlpSpec.lean ====
/-
  A perceptron with one hidden layer applied to every row of a matrix, and the other row-wise maps a message-passing
  network with edge features is made of, as functions of whole arrays over the extended reals, index by index:
  * `lin`  — an affine map of the rows: entry (p, j) is the sum over c of x(p, c) · w(c, j), plus the bias b(0, j);
  * `rect` — the rectifier, entry by entry: the maximum with the zero word;
  * `plus` — the entrywise sum of two matrices;
  * `mlp2` — rectified affine, then rectified affine again;  `head` — rectified affine, then affine;
  * `msg`  — the rectified sum of two matrices (a node's features met with an edge's).
  The bias is taken as a one-row matrix, which is how a kernel is handed it; `rowOf` is a vector in that form.
  Every one of these maps is LOCAL TO A ROW: row p of the result is a function of row p of the first operand (and of
  the whole weights), so the result on a block of rows is the block of the result; the `_rows` lemmas say so.
  General in the extents.
-/
import Idealize.ShloMosaic.PureOps.Ideal
import Idealize.ShloMosaic.Lib.ValueIdx

noncomputable section

open scoped BigOperators

namespace Cert.Mlp

open Idealize.ShloMosaic Idealize.ShloMosaic.ValueIdx

/-- An `[n, m]` array of extended reals. -/
abbrev Mat (n m : ℕ) := FVec Ideal (⟨2, ![n, m]⟩ : Shape) .f32

/-- The zero every rectifier compares against: the all-zero word, never evaluated. -/
abbrev zeroWord : Ideal .f32 := Ideal.ofBits .f32 0x00000000#32

/-- Entry (p, j) of `x · w + b`. -/
def affAt {n a h : ℕ} (x : Mat n a) (w : Mat a h) (b : Mat 1 h) (p : Fin n) (j : Fin h) : EReal :=
  (∑ c : Fin a, x (ix2 p c) * w (ix2 c j)) + b (ix2 (0 : Fin 1) j)

/-- The affine map of the rows. -/
def lin {n a h : ℕ} (x : Mat n a) (w : Mat a h) (b : Mat 1 h) : Mat n h := fun i => affAt x w b (i 0) (i 1)

/-- The rectifier. -/
def rect {n h : ℕ} (x : Mat n h) : Mat n h := fun i => max (x i) zeroWord

/-- The entrywise sum. -/
def plus {n d : ℕ} (a x : Mat n d) : Mat n d := fun i => a i + x i

/-- Rectified affine twice. -/
def mlp2 {n a h o : ℕ} (x : Mat n a) (w1 : Mat a h) (b1 : Mat 1 h) (w2 : Mat h o) (b2 : Mat 1 o) : Mat n o :=
  rect (lin (rect (lin x w1 b1)) w2 b2)

/-- Rectified affine, then affine. -/
def head {n a h o : ℕ} (x : Mat n a) (w1 : Mat a h) (b1 : Mat 1 h) (w2 : Mat h o) (b2 : Mat 1 o) : Mat n o :=
  lin (rect (lin x w1 b1)) w2 b2

/-- The rectified sum. -/
def msg {n d : ℕ} (xs e : Mat n d) : Mat n d := rect (plus xs e)

/-- A vector as a one-row matrix. -/
def rowOf {d : ℕ} (v : FVec Ideal (⟨1, ![d]⟩ : Shape) .f32) : Mat 1 d := fun i => v (ix1 (i 1))

theorem lin_apply {n a h : ℕ} (x : Mat n a) (w : Mat a h) (b : Mat 1 h) (p : Fin n) (j : Fin h) :
    lin x w b (ix2 p j) = (∑ c : Fin a, x (ix2 p c) * w (ix2 c j)) + b (ix2 (0 : Fin 1) j) := rfl
theorem rect_apply {n h : ℕ} (x : Mat n h) (i : (⟨2, ![n, h]⟩ : Shape).Idx) : rect x i = max (x i) zeroWord := rfl
theorem plus_apply {n d : ℕ} (a x : Mat n d) (i : (⟨2, ![n, d]⟩ : Shape).Idx) : plus a x i = a i + x i := rfl
theorem msg_apply {n d : ℕ} (xs e : Mat n d) (i : (⟨2, ![n, d]⟩ : Shape).Idx) : msg xs e i = max (xs i + e i) zeroWord := rfl
theorem rowOf_apply {d : ℕ} (v : FVec Ideal (⟨1, ![d]⟩ : Shape) .f32) (u : Fin 1) (q : Fin d) :
    rowOf v (ix2 u q) = v (ix1 q) := rfl

/-! ## The same entries met from the other side: a value built from termwise-equal pieces IS the function's entry -/

theorem lin_eq_of {n a h : ℕ} (x : Mat n a) (w : Mat a h) (b : Mat 1 h) (i : (⟨2, ![n, h]⟩ : Shape).Idx)
    (f : Fin a → EReal) (y : EReal) (hf : ∀ c, f c = x (ix2 (i 0) c) * w (ix2 c (i 1)))
    (hy : y = b (ix2 (0 : Fin 1) (i 1))) : (∑ c : Fin a, f c) + y = lin x w b i := by
  have e : f = fun c => x (ix2 (i 0) c) * w (ix2 c (i 1)) := funext hf
  subst e hy; rfl

/-! ## Locality to a row -/

/-- Row `p'` of `x'` being row `p` of `x`, the affine maps agree on those rows. -/
theorem lin_rows {n n' a h : ℕ} (x : Mat n a) (x' : Mat n' a) (w : Mat a h) (b : Mat 1 h) (p : Fin n) (p' : Fin n')
    (hx : ∀ c, x' (ix2 p' c) = x (ix2 p c)) (j : Fin h) : lin x' w b (ix2 p' j) = lin x w b (ix2 p j) := by
  rw [lin_apply, lin_apply]
  exact congrArg (· + b (ix2 (0 : Fin 1) j)) (Finset.sum_congr rfl fun c _ => by rw [hx c])

theorem rect_rows {n n' h : ℕ} (x : Mat n h) (x' : Mat n' h) (p : Fin n) (p' : Fin n') (j : Fin h)
    (hx : x' (ix2 p' j) = x (ix2 p j)) : rect x' (ix2 p' j) = rect x (ix2 p j) := by
  rw [rect_apply, rect_apply, hx]

theorem plus_rows {n n' d : ℕ} (a x : Mat n d) (a' x' : Mat n' d) (p : Fin n) (p' : Fin n') (j : Fin d)
    (ha : a' (ix2 p' j) = a (ix2 p j)) (hx : x' (ix2 p' j) = x (ix2 p j)) :
    plus a' x' (ix2 p' j) = plus a x (ix2 p j) := by
  rw [plus_apply, plus_apply, ha, hx]

theorem msg_rows {n n' d : ℕ} (a x : Mat n d) (a' x' : Mat n' d) (p : Fin n) (p' : Fin n') (j : Fin d)
    (ha : a' (ix2 p' j) = a (ix2 p j)) (hx : x' (ix2 p' j) = x (ix2 p j)) :
    msg a' x' (ix2 p' j) = msg a x (ix2 p j) :=
  rect_rows _ _ p p' j (plus_rows a x a' x' p p' j ha hx)

theorem mlp2_rows {n n' a h o : ℕ} (x : Mat n a) (x' : Mat n' a) (w1 : Mat a h) (b1 : Mat 1 h) (w2 : Mat h o) (b2 : Mat 1 o)
    (p : Fin n) (p' : Fin n') (hx : ∀ c, x' (ix2 p' c) = x (ix2 p c)) (j : Fin o) :
    mlp2 x' w1 b1 w2 b2 (ix2 p' j) = mlp2 x w1 b1 w2 b2 (ix2 p j) :=
  rect_rows _ _ p p' j (lin_rows _ _ w2 b2 p p' (fun c => rect_rows _ _ p p' c (lin_rows x x' w1 b1 p p' hx c)) j)

theorem head_rows {n n' a h o : ℕ} (x : Mat n a) (x' : Mat n' a) (w1 : Mat a h) (b1 : Mat 1 h) (w2 : Mat h o) (b2 : Mat 1 o)
    (p : Fin n) (p' : Fin n') (hx : ∀ c, x' (ix2 p' c) = x (ix2 p c)) (j : Fin o) :
    head x' w1 b1 w2 b2 (ix2 p' j) = head x w1 b1 w2 b2 (ix2 p j) :=
  lin_rows _ _ w2 b2 p p' (fun c => rect_rows _ _ p p' c (lin_rows x x' w1 b1 p p' hx c)) j

end Cert.Mlp

end
-- ==== Proof.LibGcnSmSpec.lean ====
/-
  A graph-convolution layer with a softmax read-out, as functions of whole arrays over the extended reals, index by
  index. With x the node features, A the adjacency matrix, W₁, b₁ the layer's weights and bias, W₂, b₂ the read-out's:
    support = x · W₁,   hidden = max (A · support + b₁, 0),   logits = hidden · W₂ᵀ + b₂,   out = softmax of each row of logits.
  The affine map of the rows, the rectifier and a vector taken as a one-row matrix come from the general file on
  row-wise maps; added here are the plain matrix product `mm`, the transpose `tr`, and the softmax of every row:
  entry (p, j) is exp (s(p, j) - M) divided by the sum over k of exp (s(p, k) - M), M the supremum of row p.
  Each is local to a row of its first operand (`mm_rows`, `softmax_rows`). General in the extents.
-/
import proofs.«110309_g65816078844311_cont_sun_m_909_18_alg».proof.Proof.LibMlpSpec
import Mathlib.Data.Finset.Lattice.Fold

noncomputable section

open scoped BigOperators

namespace Cert.GcnSm

open Cert.Mlp Idealize.ShloMosaic Idealize.ShloMosaic.ValueIdx

/-- The matrix product: entry (p, j) is the sum over c of x(p, c) · w(c, j). -/
def mm {n k m : ℕ} (x : Mat n k) (w : Mat k m) : Mat n m := fun i => ∑ c : Fin k, x (ix2 (i 0) c) * w (ix2 c (i 1))

theorem mm_apply {n k m : ℕ} (x : Mat n k) (w : Mat k m) (p : Fin n) (j : Fin m) :
    mm x w (ix2 p j) = ∑ c : Fin k, x (ix2 p c) * w (ix2 c j) := rfl

/-- Row `p'` of `x'` being row `p` of `x`, the products agree on those rows. -/
theorem mm_rows {n n' k m : ℕ} (x : Mat n k) (x' : Mat n' k) (w : Mat k m) (p : Fin n) (p' : Fin n')
    (hx : ∀ c, x' (ix2 p' c) = x (ix2 p c)) (j : Fin m) : mm x' w (ix2 p' j) = mm x w (ix2 p j) := by
  rw [mm_apply, mm_apply]
  exact Finset.sum_congr rfl fun c _ => by rw [hx c]

/-- The transpose. -/
def tr {o d : ℕ} (w : Mat o d) : Mat d o := fun i => w (ix2 (i 1) (i 0))

theorem tr_apply {o d : ℕ} (w : Mat o d) (c : Fin d) (j : Fin o) : tr w (ix2 c j) = w (ix2 j c) := rfl

/-- The softmax of a row `σ` at its entry `j`: the supremum of the row is subtracted before the exponential. -/
def softmaxAt {c : ℕ} (σ : Fin c → EReal) (j : Fin c) : EReal :=
  Ideal.div (Ideal.exp (σ j - Finset.univ.sup σ)) (∑ k : Fin c, Ideal.exp (σ k - Finset.univ.sup σ))

/-- The softmax of every row of a matrix. -/
def softmax {n c : ℕ} (s : Mat n c) : Mat n c := fun i => softmaxAt (fun k => s (ix2 (i 0) k)) (i 1)

theorem softmax_apply {n c : ℕ} (s : Mat n c) (p : Fin n) (j : Fin c) :
    softmax s (ix2 p j) = softmaxAt (fun k => s (ix2 p k)) j := rfl

/-- Row `p'` of `s'` being row `p` of `s`, the softmaxes agree on those rows. -/
theorem softmax_rows {n n' c : ℕ} (s : Mat n c) (s' : Mat n' c) (p : Fin n) (p' : Fin n')
    (hs : ∀ k, s' (ix2 p' k) = s (ix2 p k)) (j : Fin c) : softmax s' (ix2 p' j) = softmax s (ix2 p j) := by
  rw [softmax_apply, softmax_apply]
  exact congrArg (fun σ : Fin c → EReal => softmaxAt σ j) (funext hs)

/-- The hidden layer: the rectified affine map of the adjacency rows against the support. -/
def hidden {n f h : ℕ} (x : Mat n f) (adj : Mat n n) (w1 : Mat f h) (b1 : FVec Ideal (⟨1, ![h]⟩ : Shape) .f32) : Mat n h :=
  rect (lin adj (mm x w1) (rowOf b1))

/-- The class probabilities: the softmax of the read-out of the hidden layer. -/
def out {n f h o : ℕ} (x : Mat n f) (adj : Mat n n) (w1 : Mat f h) (b1 : FVec Ideal (⟨1, ![h]⟩ : Shape) .f32)
    (w2 : Mat o h) (b2 : FVec Ideal (⟨1, ![o]⟩ : Shape) .f32) : Mat n o :=
  softmax (lin (hidden x adj w1 b1) (tr w2) (rowOf b2))

end Cert.GcnSm

end
-- ==== Proof.LibRowReduce.lean ====
/-
  Row reductions of a matrix, kept as a column and repeated along the lanes, read at an entry; and a select on an
  integer comparison with zero read as an `if`. These are the pieces of a masked softmax along rows: the maximum of a
  row (a fold of `max` from `-∞`, the value of the accumulator word `0xFF800000`), the sum of a row, each
  broadcast back to the matrix's shape, so that at the entry `(p, c)` one reads the reduction of row `p`. General in
  the extents, at the ideal values, where a float is an extended real.
-/
import proofs.«110309_g65816078844311_cont_sun_m_909_18_alg».proof.Proof.LibKernelIdx
import Idealize.ShloMosaic.Lib.Affine

noncomputable section

open scoped BigOperators

namespace Cert.LibRowReduce

open Idealize.ShloMosaic Idealize.ShloMosaic.ValueIdx

/-- The binary32 word of negative infinity denotes `⊥`. -/
theorem ofBits_neg_inf_f32 : Ideal.ofBits .f32 0xFF800000#32 = ⊥ := by
  simp [Ideal.ofBits, Ideal.ieee]

/-- The maximum of an `[a, b]` matrix along its second axis, read at row `p`, is the fold of `max` from `⊥` over that
    row's entries. The accumulator's side condition is typed as a program spells it, an equation between two words. -/
theorem laneMax_apply {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ v 0xFF800000#32 h hφ hacc (ix1 p)
      = (Finset.univ : Finset (Fin b)).fold max ⊥ (fun k => v (ix2 p k)) := by
  refine (Ideal.multiReduction_maximumf_single v 0xFF800000#32 h hφ hacc (ix1 p)).trans ?_
  have e : (v ∘ h.lift (ix1 p) : Fin b → EReal) = fun k => v (ix2 p k) :=
    funext fun k => congrArg v (funext fun ax => Fin.ext (match ax with | ⟨0, _⟩ => rfl | ⟨1, _⟩ => rfl))
  show (Finset.univ : Finset (Fin b)).fold max (Ideal.ofBits .f32 0xFF800000#32) (v ∘ h.lift (ix1 p)) = _
  rw [ofBits_neg_inf_f32]
  exact congrArg (fun f : Fin b → EReal => (Finset.univ : Finset (Fin b)).fold max ⊥ f) e

/-- The row maximum kept as a column and repeated along the lanes: at `(p, c)` the maximum of row `p`. -/
theorem keepdimsMax_apply {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩
        (shapeCast ⟨2, ![a, 1]⟩ (multiReduction (F := Ideal) .maximumf [1] ⟨1, ![a]⟩ v 0xFF800000#32 h hφ hacc) hc) hb (ix2 p c)
      = (Finset.univ : Finset (Fin b)).fold max ⊥ (fun k => v (ix2 p k)) :=
  (Cert.LibKernelIdx.broadcastTo_a1_ab_apply _ hb p c (0 : Fin 1)).trans
    ((Cert.LibKernelIdx.shapeCast_a_a1_apply _ hc p (0 : Fin 1)).trans (laneMax_apply v h hφ hacc p))

/-- The row sum kept as a column and repeated along the lanes: at `(p, c)` the sum of row `p`. -/
theorem keepdimsSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩
        (shapeCast ⟨2, ![a, 1]⟩ (multiReduction (F := Ideal) .add [1] ⟨1, ![a]⟩ v 0x00000000#32 h hφ hacc) hc) hb (ix2 p c)
      = ∑ k : Fin b, v (ix2 p k) :=
  (Cert.LibKernelIdx.broadcastTo_a1_ab_apply _ hb p c (0 : Fin 1)).trans
    ((Cert.LibKernelIdx.shapeCast_a_a1_apply _ hc p (0 : Fin 1)).trans (Cert.LibKernelIdx.laneSum_apply v h hφ hacc p))

/-- A select on "the word is not zero" is an `if` on that inequality. -/
theorem select_ne_zero {α : Type} {w : ℕ} (x : BitVec w) (y z : α) :
    Scalar.select (IntOp.cmpi .ne x 0#w) y z = if x ≠ 0#w then y else z :=
  if_congr IntOp.cmpi_ne rfl rfl

/-- A vector select whose condition, at the index, is "the word `x` is not zero" and whose two operands have the named
    values there: an `if` on the inequality between the two values. -/
theorem select_ne_zero_of_eq {α : Type} {s : Shape} {w : ℕ} (c : IVec s 1) (u t : s.Idx → α) (i : s.Idx)
    (x : BitVec w) (y z : α) (hc : c i = IntOp.cmpi .ne x 0#w) (hu : u i = y) (ht : t i = z) :
    select c u t i = if x ≠ 0#w then y else z := by
  show Scalar.select (c i) (u i) (t i) = _
  rw [hc, hu, ht]
  exact select_ne_zero x y z

/-! ## A masked softmax along the rows, at an entry -/

/-- The masked softmax of a matrix `s` along its rows, rounded to the narrower format (at the ideal values: left as it
    is), read at the entry `(p, j)`. With `σ k` the entry `(p, k)` of `s` and `M` the maximum of row `p` (the fold of
    `max` from `⊥` over `σ`), the entry is, where the mask word `cj` is set, the quotient of `exp (σ j - M)` by the sum
    over the row of `exp (σ k - M)`, and zero elsewhere. The row's values and the mask's word are named by the caller
    (`hs`, `hcj`), so that they can be whatever the caller has read them to be. -/
theorem maskedSoftmax_apply {a b : ℕ} (s : FVec Ideal ⟨2, ![a, b]⟩ .f32) (c : IVec ⟨2, ![a, b]⟩ 1)
    (h : (⟨2, ![a, b]⟩ : Shape).Reduces [1] ⟨1, ![a]⟩) (hφ : FKind.Formats .f32)
    (haccM : (0xFF800000#32 : BitVec 32) = 0xFF800000#32) (haccS : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (hlt : FTy.bits .bf16 < FTy.bits .f32) (p : Fin a) (j : Fin b)
    (σ : Fin b → EReal) (cj : BitVec 1) (hs : ∀ k, s (ix2 p k) = σ k) (hcj : c (ix2 p j) = cj) :
    (truncf .bf16
      (select c
        (divf
          (Idealize.ShloMosaic.exp (subf s (broadcastTo ⟨2, ![a, b]⟩
            (shapeCast ⟨2, ![a, 1]⟩ (multiReduction (F := Ideal) .maximumf [1] ⟨1, ![a]⟩ s 0xFF800000#32 h hφ haccM) hc) hb)))
          (broadcastTo ⟨2, ![a, b]⟩
            (shapeCast ⟨2, ![a, 1]⟩ (multiReduction (F := Ideal) .add [1] ⟨1, ![a]⟩
              (Idealize.ShloMosaic.exp (subf s (broadcastTo ⟨2, ![a, b]⟩
                (shapeCast ⟨2, ![a, 1]⟩ (multiReduction (F := Ideal) .maximumf [1] ⟨1, ![a]⟩ s 0xFF800000#32 h hφ haccM) hc) hb)))
              0x00000000#32 h hφ haccS) hc) hb))
        (broadcast ⟨2, ![a, b]⟩ (Scalar.ofBits (F := Ideal) .f32 0x00000000#32))) hlt : FVec Ideal ⟨2, ![a, b]⟩ .bf16) (ix2 p j)
      = Scalar.select cj
          (Ideal.div (Ideal.exp (σ j - (Finset.univ : Finset (Fin b)).fold max ⊥ σ))
            (∑ k : Fin b, Ideal.exp (σ k - (Finset.univ : Finset (Fin b)).fold max ⊥ σ)))
          0 := by
  have hM : ∀ k : Fin b, broadcastTo ⟨2, ![a, b]⟩
      (shapeCast ⟨2, ![a, 1]⟩ (multiReduction (F := Ideal) .maximumf [1] ⟨1, ![a]⟩ s 0xFF800000#32 h hφ haccM) hc) hb (ix2 p k)
      = (Finset.univ : Finset (Fin b)).fold max ⊥ σ := fun k =>
    (keepdimsMax_apply s h hφ haccM hc hb p k).trans
      (congrArg (fun f : Fin b → EReal => (Finset.univ : Finset (Fin b)).fold max ⊥ f) (funext hs))
  have hE : ∀ k : Fin b, Idealize.ShloMosaic.exp (subf s (broadcastTo ⟨2, ![a, b]⟩
      (shapeCast ⟨2, ![a, 1]⟩ (multiReduction (F := Ideal) .maximumf [1] ⟨1, ![a]⟩ s 0xFF800000#32 h hφ haccM) hc) hb)) (ix2 p k)
      = Ideal.exp (σ k - (Finset.univ : Finset (Fin b)).fold max ⊥ σ) := fun k =>
    congrArg Ideal.exp (congrArg₂ (· - ·) (hs k) (hM k))
  refine (congrArg₂ (fun (w : BitVec 1) (x : EReal) => Scalar.select w x (Ideal.ofBits .f32 0x00000000#32)) hcj
    (congrArg₂ Ideal.div (hE j) ((keepdimsSum_apply _ h hφ haccS hc hb p j).trans
      (Finset.sum_congr rfl fun k _ => hE k)))).trans ?_
  exact congrArg (Scalar.select cj _) Ideal.ofBits_zero_f32

end Cert.LibRowReduce

end
-- ==== Proof.LibMaskedMax.lean ====
import Idealize.ShloMosaic.Lib.ValueIdx
import Idealize.ShloMosaic.Lib.Pipeline.Value
import Idealize.ShloMosaic.PureOps
import Idealize.ShloMosaic.PureOps.Ideal.Laws
import Mathlib.Data.Finset.Lattice.Fold
import Mathlib.Data.Fintype.Lattice
import Mathlib.Order.Interval.Finset.Nat

noncomputable section

namespace MaskedMax

open Idealize.ShloMosaic Idealize.ShloMosaic.ValueIdx

/-! ## The column mask

A block of `n1` columns starts at column `t * c` of a longer row of length `L`; a column of the block is
inside the row exactly when its absolute position `t * c + k` is below `L`. The program computes the
absolute position in 32-bit words and compares it, signed, with the word of `L`; as long as every
position stays below `2 ^ 31` the words do not wrap and the signed comparison is the comparison of the
natural numbers. -/

/-- A one-bit word made from a Boolean is the bit `1` exactly when the Boolean is true. -/
theorem ofBool_eq_one_iff (b : Bool) : BitVec.ofBool b = 1#1 ↔ b = true := by
  cases b <;> decide

/-- The word of `a` times the word of `c`, plus the word of `b`, is the word of `a * c + b` (arithmetic of
    32-bit words is arithmetic modulo `2 ^ 32`, which the word of a natural number respects). -/
theorem word_mul_add (a c b : Nat) :
    BitVec.ofNat 32 a * BitVec.ofNat 32 c + BitVec.ofNat 32 b = BitVec.ofNat 32 (a * c + b) := by
  simp [BitVec.ofNat_add, BitVec.ofNat_mul]

/-- Below `2 ^ 31` the signed reading of the word of `n` is `n` itself. -/
theorem toInt_word (n : Nat) (h : n < 2 ^ 31) : (BitVec.ofNat 32 n).toInt = (n : Int) := by
  rw [BitVec.toInt_eq_toNat_of_lt (by simp; omega)]
  simp; omega

/-- Below `2 ^ 31` the signed comparison of two words is the comparison of the numbers. -/
theorem word_slt_iff (n L : Nat) (hn : n < 2 ^ 31) (hL : L < 2 ^ 31) :
    (BitVec.ofNat 32 n).slt (BitVec.ofNat 32 L) = true ↔ n < L := by
  rw [BitVec.slt_iff_toInt_lt, toInt_word n hn, toInt_word L hL]
  omega

/-- THE COLUMN MASK. On a block of shape `[n0, n1]`, the vector "block offset `t * c` plus the column's
    number within the block, compared signed-below with `L`" has the bit `1` at an index exactly when the
    column's absolute position `t * c + k` is below `L` — provided the positions of the block (`hb`) and
    the bound `L` (`hL`) stay below `2 ^ 31`, where 32-bit words neither wrap nor read as negative. -/
theorem colMask_eq_one_iff {n0 n1 : Nat} (h : (⟨2, ![n0, n1]⟩ : Shape).Iotas .tc 32 [1]) (t c L : Nat)
    (hb : t * c + n1 ≤ 2 ^ 31) (hL : L < 2 ^ 31) (j : (⟨2, ![n0, n1]⟩ : Shape).Idx) :
    cmpi .slt (addi (broadcast (⟨2, ![n0, n1]⟩ : Shape) (Scalar.muli (BitVec.ofNat 32 t) (BitVec.ofNat 32 c)))
          (iota .tc (⟨2, ![n0, n1]⟩ : Shape) 32 [1] h))
        (broadcast (⟨2, ![n0, n1]⟩ : Shape) (BitVec.ofNat 32 L)) j = 1#1
      ↔ t * c + (j 1).val < L := by
  have hj : (j 1).val < n1 := idx2_lt1 j
  show BitVec.ofBool ((BitVec.ofNat 32 t * BitVec.ofNat 32 c + BitVec.ofNat 32 (0 * n1 + (j 1).val)).slt
      (BitVec.ofNat 32 L)) = 1#1 ↔ _
  rw [ofBool_eq_one_iff, word_mul_add, word_slt_iff _ _ (by omega) hL]
  omega

/-- THE MASKED BLOCK, at any float instance (or none): selecting `x` under the column mask and `y`
    elsewhere reads `x` at the columns inside the row and `y` at the columns past its end. -/
theorem select_colMask_apply {α : Type} {n0 n1 : Nat} (h : (⟨2, ![n0, n1]⟩ : Shape).Iotas .tc 32 [1]) (t c L : Nat)
    (hb : t * c + n1 ≤ 2 ^ 31) (hL : L < 2 ^ 31) (x y : (⟨2, ![n0, n1]⟩ : Shape).Idx → α)
    (j : (⟨2, ![n0, n1]⟩ : Shape).Idx) :
    select (cmpi .slt (addi (broadcast (⟨2, ![n0, n1]⟩ : Shape) (Scalar.muli (BitVec.ofNat 32 t) (BitVec.ofNat 32 c)))
          (iota .tc (⟨2, ![n0, n1]⟩ : Shape) 32 [1] h))
        (broadcast (⟨2, ![n0, n1]⟩ : Shape) (BitVec.ofNat 32 L))) x y j
      = if t * c + (j 1).val < L then x j else y j := by
  rw [select_apply]
  by_cases hlt : t * c + (j 1).val < L
  · rw [(colMask_eq_one_iff h t c L hb hL j).mpr hlt, select_one, if_pos hlt]
  · rw [eq_zero_of_ne_one (fun e => hlt ((colMask_eq_one_iff h t c L hb hL j).mp e)), select_zero, if_neg hlt]

/-- Two blocks that agree at every column inside the row give the same masked block: the columns past the
    row's end are replaced by `y` in both. -/
theorem select_colMask_congr {α : Type} {n0 n1 : Nat} (h : (⟨2, ![n0, n1]⟩ : Shape).Iotas .tc 32 [1]) (t c L : Nat)
    (hb : t * c + n1 ≤ 2 ^ 31) (hL : L < 2 ^ 31) (x x' y : (⟨2, ![n0, n1]⟩ : Shape).Idx → α)
    (hx : ∀ j : (⟨2, ![n0, n1]⟩ : Shape).Idx, t * c + (j 1).val < L → x j = x' j) :
    select (cmpi .slt (addi (broadcast (⟨2, ![n0, n1]⟩ : Shape) (Scalar.muli (BitVec.ofNat 32 t) (BitVec.ofNat 32 c)))
          (iota .tc (⟨2, ![n0, n1]⟩ : Shape) 32 [1] h))
        (broadcast (⟨2, ![n0, n1]⟩ : Shape) (BitVec.ofNat 32 L))) x y
      = select (cmpi .slt (addi (broadcast (⟨2, ![n0, n1]⟩ : Shape) (Scalar.muli (BitVec.ofNat 32 t) (BitVec.ofNat 32 c)))
          (iota .tc (⟨2, ![n0, n1]⟩ : Shape) 32 [1] h))
        (broadcast (⟨2, ![n0, n1]⟩ : Shape) (BitVec.ofNat 32 L))) x' y := by
  funext j
  rw [select_colMask_apply h t c L hb hL, select_colMask_apply h t c L hb hL]
  by_cases hlt : t * c + (j 1).val < L
  · rw [if_pos hlt, if_pos hlt, hx j hlt]
  · rw [if_neg hlt, if_neg hlt]

/-! ## Suprema: a fold of `max` from `⊥`, blocks, and a running maximum -/

section Sup
variable {α : Type*} [LinearOrder α] [OrderBot α]

/-- A fold of `max` from `⊥` over a finite set is the supremum over it. -/
theorem fold_max_bot_eq_sup {ι : Type*} (s : Finset ι) (f : ι → α) : s.fold max ⊥ f = s.sup f := by
  induction s using Finset.cons_induction with
  | empty => rw [Finset.fold_empty, Finset.sup_empty]
  | cons a s ha ih => rw [Finset.fold_cons, Finset.sup_cons, ih]

/-- A supremum over the naturals below `n` is the supremum over `Fin n`. -/
theorem sup_range_eq_sup_fin (n : Nat) (g : Nat → α) :
    (Finset.range n).sup g = Finset.univ.sup fun s : Fin n => g s.val := by
  apply le_antisymm
  · exact Finset.sup_le fun m hm =>
      Finset.le_sup (f := fun s : Fin n => g s.val) (Finset.mem_univ (⟨m, Finset.mem_range.mp hm⟩ : Fin n))
  · exact Finset.sup_le fun s _ => Finset.le_sup (f := g) (Finset.mem_range.mpr s.isLt)

/-- THE BLOCKED SUPREMUM. Cut `Fin n` into `T` consecutive blocks of length `B` that together cover it
    (`n ≤ T * B`; the last blocks may overhang, and an overhanging position counts as `⊥`): the supremum of
    the blocks' suprema is the supremum over `Fin n`. -/
theorem sup_blocks {n T B : Nat} (hn : n ≤ T * B) (f : Fin n → α) :
    (Finset.univ.sup fun t : Fin T => Finset.univ.sup fun k : Fin B =>
        if h : t.val * B + k.val < n then f ⟨t.val * B + k.val, h⟩ else ⊥) = Finset.univ.sup f := by
  apply le_antisymm
  · refine Finset.sup_le fun t _ => Finset.sup_le fun k _ => ?_
    by_cases h : t.val * B + k.val < n
    · rw [dif_pos h]; exact Finset.le_sup (f := f) (Finset.mem_univ _)
    · rw [dif_neg h]; exact bot_le
  · refine Finset.sup_le fun m _ => ?_
    have hm : m.val < n := m.isLt
    have hB : 0 < B := by
      rcases Nat.eq_zero_or_pos B with h0 | h0
      · subst h0; omega
      · exact h0
    have ht : m.val / B < T := by
      apply Nat.div_lt_of_lt_mul
      rw [Nat.mul_comm]; omega
    have hk : m.val % B < B := Nat.mod_lt _ hB
    have hsum : m.val / B * B + m.val % B = m.val := Nat.div_add_mod' _ _
    have hlt : m.val / B * B + m.val % B < n := by omega
    have e : f m = (fun k : Fin B => if h : m.val / B * B + k.val < n then f ⟨m.val / B * B + k.val, h⟩ else ⊥)
        ⟨m.val % B, hk⟩ := by
      show f m = if h : m.val / B * B + m.val % B < n then f ⟨m.val / B * B + m.val % B, h⟩ else ⊥
      rw [dif_pos hlt]
      exact congrArg f (Fin.ext hsum.symm)
    rw [e]
    exact (Finset.le_sup (f := fun k : Fin B =>
        if h : m.val / B * B + k.val < n then f ⟨m.val / B * B + k.val, h⟩ else ⊥) (Finset.mem_univ _)).trans
      (Finset.le_sup (f := fun t : Fin T => Finset.univ.sup fun k : Fin B =>
        if h : t.val * B + k.val < n then f ⟨t.val * B + k.val, h⟩ else ⊥) (Finset.mem_univ (⟨m.val / B, ht⟩ : Fin T)))

/-- The blocked supremum with the blocks numbered by the naturals below `T`. -/
theorem sup_blocks_range {n T B : Nat} (hn : n ≤ T * B) (f : Fin n → α) :
    ((Finset.range T).sup fun s : ℕ => Finset.univ.sup fun k : Fin B =>
        if h : s * B + k.val < n then f ⟨s * B + k.val, h⟩ else ⊥) = Finset.univ.sup f := by
  rw [sup_range_eq_sup_fin]
  exact sup_blocks hn f

/-- THE RUNNING MAXIMUM. A sequence that starts at `max ⊥ (g 0)` and at each step takes the maximum of
    its previous value and the next `g` is, at step `t`, the supremum of `g` over the steps up to `t`. -/
theorem running_max_eq_sup (acc g : Nat → α) (h0 : acc 0 = max ⊥ (g 0))
    (hs : ∀ t, acc (t + 1) = max (acc t) (g (t + 1))) (t : Nat) :
    acc t = (Finset.range (t + 1)).sup g := by
  induction t with
  | zero =>
    rw [h0, Finset.range_add_one, Finset.sup_insert, Finset.range_zero, Finset.sup_empty]
    exact max_comm _ _
  | succ t ih =>
    rw [hs, ih, Finset.range_add_one (n := t + 1), Finset.sup_insert]
    exact max_comm _ _

/-- The running maximum as a supremum over `Fin (t + 1)`. -/
theorem running_max_eq_sup_fin (acc g : Nat → α) (h0 : acc 0 = max ⊥ (g 0))
    (hs : ∀ t, acc (t + 1) = max (acc t) (g (t + 1))) (t : Nat) :
    acc t = Finset.univ.sup fun s : Fin (t + 1) => g s.val := by
  rw [running_max_eq_sup acc g h0 hs t, sup_range_eq_sup_fin]

end Sup

/-! ## A row maximum at the ideal values, and the column shape cast -/

section Rows
variable {β : Type}

/-- An `[a]` vector cast to the column `[a, 1]` reads, at `(i, u)`, the operand at `i`, whatever the unit
    coordinate `u`. -/
theorem shapeCast_a_a1_apply {a : ℕ} (x : (⟨1, ![a]⟩ : Shape).Idx → β)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Over the second axis of a rank-2 shape, the source index above row `r` with coordinate `k` inserted is
    `(r, k)`. -/
theorem lift_axis1 {n0 n1 : Nat} (h : (⟨2, ![n0, n1]⟩ : Shape).Reduces [1] ⟨1, ![n0]⟩) (r : Fin n0) (k : Fin n1) :
    h.lift (ix1 r) k = ix2 r k := by
  funext a
  match a with
  | ⟨0, _⟩ => exact Fin.ext rfl
  | ⟨1, _⟩ => exact Fin.ext rfl

/-- A ROW MAXIMUM at the ideal values: a `maximumf` reduction of an `[n0, n1]` vector over its second axis,
    from an accumulator pattern that denotes `⊥`, is at row `r` the supremum of the row's entries. -/
theorem multiReduction_maximumf_rows {φ : FTy} {n0 n1 : Nat} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.maximumf.neutral φ hφ) (hbot : Ideal.ofBits φ acc = ⊥) (r : Fin n0) :
    multiReduction .maximumf [1] ⟨1, ![n0]⟩ src acc h hφ hacc (ix1 r)
      = Finset.univ.sup fun k : Fin n1 => src (ix2 r k) := by
  refine (Ideal.multiReduction_maximumf_single src acc h hφ hacc (ix1 r)).trans ?_
  have hb : FloatOps.ofBits (F := Ideal) φ acc = (⊥ : EReal) := hbot
  rw [hb, fold_max_bot_eq_sup]
  show (Finset.univ : Finset (Fin n1)).sup (fun k => src (h.lift (ix1 r) k)) = _
  refine Finset.sup_congr rfl fun k _ => ?_
  rw [lift_axis1]

/-- The same for a host `reduce` with a `maximumf` body over the second axis, from an initial value that is `⊥`:
    at row `r` it is the supremum of the row's entries. -/
theorem hostReduce_maximumf_rows {φ : FTy} {u : Shape} {n0 n1 : Nat} (x : FVec Ideal ⟨2, ![n0, n1]⟩ φ)
    (init : FVec Ideal u φ) (h' : (⟨2, ![n0, n1]⟩ : Shape).ReducesTo [1] ⟨1, ![n0]⟩)
    (h : (⟨2, ![n0, n1]⟩ : Shape).Reduces [1] ⟨1, ![n0]⟩) (hu : 0 < u.numel)
    (hbot : init (Shape.Idx.first hu) = ⊥) (r : Fin n0) :
    Host.reduce (FloatOps.maximumf (F := Ideal) (φ := φ)) x init h' hu (ix1 r)
      = Finset.univ.sup fun k : Fin n1 => x (ix2 r k) := by
  refine (Host.reduce_eq_fold_single (FloatOps.maximumf (F := Ideal) (φ := φ)) x init h' h hu (ix1 r)).trans ?_
  rw [hbot]
  show (Finset.univ : Finset (Fin ((⟨2, ![n0, n1]⟩ : Shape).size 1))).fold max (⊥ : EReal) (x ∘ h.lift (ix1 r)) = _
  rw [fold_max_bot_eq_sup]
  show (Finset.univ : Finset (Fin n1)).sup (fun k => x (h.lift (ix1 r) k)) = _
  refine Finset.sup_congr rfl fun k _ => ?_
  rw [lift_axis1]

end Rows

end MaskedMax

end
-- ==== Proof.LibMatmulRows.lean ====
/-
  A matrix product that contracts the SECOND axis of both operands, an `[m, k]` matrix with the transpose of an
  `[n, k]` one, accumulated into the zero splat and read at an entry at the ideal values: entry `(p, j)` is the
  inner product of row `p` of the left operand with row `j` of the right one. General in the extents.
-/
import Idealize.ShloMosaic.Lib.Pipeline.Value
import Idealize.ShloMosaic.Lib.ValueIdx
import Idealize.ShloMosaic.PureOps.Ideal.Laws

noncomputable section

open scoped BigOperators

namespace Cert.LibMatmulRows

open Idealize.ShloMosaic Idealize.ShloMosaic.ValueIdx

variable {m k n : ℕ}

/-- The dimension numbers: each operand's second axis contracted, its first kept, no batch axes. -/
abbrev rowsDims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

variable (w : DotDims.WF ⟨2, ![m, k]⟩ ⟨2, ![n, k]⟩ ⟨2, ![m, n]⟩ [1] [1] [0] [0] [] [])

/-- The left operand is read in the row the result's first coordinate names, -/
theorem lhs_row (i : (⟨2, ![m, n]⟩ : Shape).Idx) (q : (rowsDims w).contr.Idx) :
    ((rowsDims w).lhsIdx i q 0).val = (i 0).val := by
  unfold DotDims.lhsIdx
  rw [dif_neg (show ¬((0 : Fin 2) ∈ (rowsDims w).lhsBatch) from List.not_mem_nil),
    dif_pos (show (0 : Fin 2) ∈ (rowsDims w).lhsNonContracting from List.mem_singleton.mpr rfl)]
  rfl

/-- and the right operand in the row the result's second coordinate names. -/
theorem rhs_row (i : (⟨2, ![m, n]⟩ : Shape).Idx) (q : (rowsDims w).contr.Idx) :
    ((rowsDims w).rhsIdx i q 0).val = (i 1).val := by
  unfold DotDims.rhsIdx
  rw [dif_neg (show ¬((0 : Fin 2) ∈ (rowsDims w).rhsBatch) from List.not_mem_nil),
    dif_pos (show (0 : Fin 2) ∈ (rowsDims w).rhsNonContracting from List.mem_singleton.mpr rfl)]
  rfl

/-- The product of an `[m, k]` matrix with the transpose of an `[n, k]` matrix (each operand's second axis
    contracted, no batch axes) accumulated into the zero splat, read at `(p, j)`: the sum over the contracted
    coordinate `c` of `A (p, c) · B (j, c)`. -/
theorem matmul_rows_zero_apply {φ₁ φ₂ : FTy} (prec : Option ContractPrecision)
    (A : FVec Ideal ⟨2, ![m, k]⟩ φ₁) (B : FVec Ideal ⟨2, ![n, k]⟩ φ₂) (p : Fin m) (j : Fin n) :
    matmul (rowsDims w) prec A B (constant (F := Ideal) ⟨2, ![m, n]⟩ .f32 0x00000000#32) (ix2 p j)
      = ∑ c : Fin k, A (ix2 p c) * B (ix2 j c) := by
  show FloatOps.matmul _ prec A B _ (ix2 p j) = _
  rw [Ideal.matmul_constant_zero_apply, ← Equiv.sum_comp (contrEquiv1 (rowsDims w) k rfl rfl).symm]
  refine Finset.sum_congr rfl fun c _ => ?_
  have c2 := contrEquiv1_symm_val (rowsDims w) k rfl rfl c
  have l2 : (rowsDims w).lhsIdx (ix2 p j) ((contrEquiv1 (rowsDims w) k rfl rfl).symm c) = ix2 p c :=
    funext fun ax => Fin.ext (by
      match ax with
      | ⟨0, _⟩ => exact lhs_row w _ _
      | ⟨1, _⟩ => exact ((rowsDims w).lhsIdx_val_of_single rfl _ _).trans c2)
  have r2 : (rowsDims w).rhsIdx (ix2 p j) ((contrEquiv1 (rowsDims w) k rfl rfl).symm c) = ix2 j c :=
    funext fun ax => Fin.ext (by
      match ax with
      | ⟨0, _⟩ => exact rhs_row w _ _
      | ⟨1, _⟩ => exact ((rowsDims w).rhsIdx_val_of_single rfl _ _).trans c2)
  rw [l2, r2]

end Cert.LibMatmulRows

end
-- ==== Proof.LibRowForms.lean ====
/-
  Three layout forms of a kernel body read at an index given by coordinates, general in the extents: a one-row
  matrix repeated down the rows ([1, b] → [a, b]), one column cut out of a matrix ([a, b] → [a, 1] at a column
  offset), and a one-hot row built from a lane counter (the counter compared with a constant, widened, and converted
  to a float at the ideal values): one where the lane is the constant, zero elsewhere.
-/
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowForms

open Idealize.ShloMosaic Idealize.ShloMosaic.ValueIdx

variable {α : Type}

/-- A `[1, b]` row broadcast to `[a, b]` reads, at `(p, c)`, the row's entry of column `c` (its unit coordinate
    written `u`, whatever it is). -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

/-- The column at offset `o` cut out of an `[a, b]` matrix reads, at `(p, u)`, the matrix at `(p, o)`. -/
theorem sliceColumn_apply {a b : ℕ} (o : ℕ) (ho : o < b) (x : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] x h (ix2 p u) = x (ix2 p ⟨o, ho⟩) := by
  refine extractStridedSlice_apply ![0, o] x h (ix2 p u) (ix2 p ⟨o, ho⟩) fun ax => ?_
  match ax with
  | ⟨0, _⟩ => show p.val = 0 + p.val; omega
  | ⟨1, _⟩ => show o = o + u.val; omega

/-- A lane counter below `n ≤ 2³²` compared with the constant `j < n`, widened to 32 bits and converted: one at
    lane `j`, zero elsewhere. -/
theorem oneHot_word (i j : ℕ) (hi : i < 2 ^ 32) (hj : j < 2 ^ 32) :
    FloatOps.sitofp (F := Ideal) .f32 ((IntOp.cmpi .eq (BitVec.ofNat 32 i) (BitVec.ofNat 32 j)).setWidth 32)
      = if i = j then (1 : EReal) else 0 := by
  show ((((BitVec.ofBool (BitVec.ofNat 32 i == BitVec.ofNat 32 j)).setWidth 32).toInt : ℝ) : EReal) = _
  rw [toInt_setWidth_bit]
  by_cases h : i = j
  · subst h
    rw [if_pos rfl, beq_self_eq_true]
    simp
  · have e : (BitVec.ofNat 32 i == BitVec.ofNat 32 j) = false := by
      rw [beq_eq_false_iff_ne]
      intro e
      apply h
      have := congrArg BitVec.toNat e
      rw [BitVec.toNat_ofNat, BitVec.toNat_ofNat, Nat.mod_eq_of_lt hi, Nat.mod_eq_of_lt hj] at this
      exact this
    rw [e, if_neg h]
    simp

end Cert.LibRowForms

end
-- ==== Proof.LibSoftmaxKernel.lean ====
/-
  The softmax of every row of a matrix as a kernel body spells it, read at an entry at the ideal values: the row
  maximum (a lane reduction from the word of negative infinity) kept as a column and repeated along the lanes, the
  difference exponentiated, the row sum (a lane reduction from the zero word) kept and repeated likewise, and the
  quotient. Entry (p, j) is the softmax of row p at j, the row's maximum being its supremum. Also the read-out
  in front of it: both operands narrowed, the product that contracts the second axis of both accumulated into the
  zero splat, and a one-row bias repeated over the rows and added, is the affine map of the rows against the
  transposed weights. General in the extents; the shape relations are hypotheses.
-/
import proofs.«110309_g65816078844311_cont_sun_m_909_18_alg».proof.Proof.LibGcnSmSpec
import proofs.«110309_g65816078844311_cont_sun_m_909_18_alg».proof.Proof.LibRowReduce
import proofs.«110309_g65816078844311_cont_sun_m_909_18_alg».proof.Proof.LibMaskedMax
import proofs.«110309_g65816078844311_cont_sun_m_909_18_alg».proof.Proof.LibMatmulRows
import proofs.«110309_g65816078844311_cont_sun_m_909_18_alg».proof.Proof.LibRowForms

noncomputable section

open scoped BigOperators

namespace Cert.LibSoftmaxKernel

open Cert.Mlp Cert.GcnSm Idealize.ShloMosaic Idealize.ShloMosaic.ValueIdx

/-- The softmax chain of a kernel body at the entry (p, j): the softmax of row p at j. -/
theorem softmax_chain_apply {a b : ℕ} (s : FVec Ideal ⟨2, ![a, b]⟩ .f32)
    (h : (⟨2, ![a, b]⟩ : Shape).Reduces [1] ⟨1, ![a]⟩) (hφ : FKind.Formats .f32)
    (haccM : (0xFF800000#32 : BitVec 32) = 0xFF800000#32) (haccS : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (p : Fin a) (j : Fin b) :
    divf
        (Idealize.ShloMosaic.exp (subf s (broadcastTo ⟨2, ![a, b]⟩
          (shapeCast ⟨2, ![a, 1]⟩ (multiReduction (F := Ideal) .maximumf [1] ⟨1, ![a]⟩ s 0xFF800000#32 h hφ haccM) hc) hb)))
        (broadcastTo ⟨2, ![a, b]⟩
          (shapeCast ⟨2, ![a, 1]⟩ (multiReduction (F := Ideal) .add [1] ⟨1, ![a]⟩
            (Idealize.ShloMosaic.exp (subf s (broadcastTo ⟨2, ![a, b]⟩
              (shapeCast ⟨2, ![a, 1]⟩ (multiReduction (F := Ideal) .maximumf [1] ⟨1, ![a]⟩ s 0xFF800000#32 h hφ haccM) hc) hb)))
            0x00000000#32 h hφ haccS) hc) hb) (ix2 p j)
      = softmaxAt (fun k => s (ix2 p k)) j := by
  have hM : ∀ k : Fin b, broadcastTo ⟨2, ![a, b]⟩
      (shapeCast ⟨2, ![a, 1]⟩ (multiReduction (F := Ideal) .maximumf [1] ⟨1, ![a]⟩ s 0xFF800000#32 h hφ haccM) hc) hb (ix2 p k)
      = Finset.univ.sup fun k' : Fin b => s (ix2 p k') := fun k =>
    (Cert.LibRowReduce.keepdimsMax_apply s h hφ haccM hc hb p k).trans (MaskedMax.fold_max_bot_eq_sup _ _)
  have hE : ∀ k : Fin b, Idealize.ShloMosaic.exp (subf s (broadcastTo ⟨2, ![a, b]⟩
      (shapeCast ⟨2, ![a, 1]⟩ (multiReduction (F := Ideal) .maximumf [1] ⟨1, ![a]⟩ s 0xFF800000#32 h hφ haccM) hc) hb)) (ix2 p k)
      = Ideal.exp (s (ix2 p k) - Finset.univ.sup fun k' : Fin b => s (ix2 p k')) := fun k =>
    congrArg Ideal.exp (congrArg (fun z : EReal => s (ix2 p k) - z) (hM k))
  exact congrArg₂ Ideal.div (hE j) ((Cert.LibRowReduce.keepdimsSum_apply _ h hφ haccS hc hb p j).trans
    (Finset.sum_congr rfl fun k _ => hE k))

/-- The read-out of a kernel body at the entry (p, k): the affine map of row p against the transposed weights. -/
theorem readout_apply {n d o : ℕ}
    (w : DotDims.WF ⟨2, ![n, d]⟩ ⟨2, ![o, d]⟩ ⟨2, ![n, o]⟩ [1] [1] [0] [0] [] [])
    (hlt : FTy.bits .bf16 < FTy.bits .f32)
    (hc : (⟨2, ![1, o]⟩ : Shape).ShapeCasts ⟨2, ![1, o]⟩) (hbr : (⟨2, ![1, o]⟩ : Shape).Broadcasts ⟨2, ![n, o]⟩)
    (g : Mat n d) (w2 : Mat o d) (b2 : Mat 1 o) (p : Fin n) (k : Fin o) :
    addf (matmul (Cert.LibMatmulRows.rowsDims w) none (truncf .bf16 g hlt) (truncf .bf16 w2 hlt)
            (constant (F := Ideal) ⟨2, ![n, o]⟩ .f32 0x00000000#32))
         (broadcastTo ⟨2, ![n, o]⟩ (shapeCast ⟨2, ![1, o]⟩ b2 hc) hbr) (ix2 p k)
      = lin g (tr w2) b2 (ix2 p k) := by
  rw [addf_apply, Cert.LibRowForms.broadcastTo_1b_ab_apply _ hbr p k (0 : Fin 1), shapeCast_self]
  exact congrArg (fun z : EReal => z + b2 (ix2 (0 : Fin 1) k))
    (Cert.LibMatmulRows.matmul_rows_zero_apply w none (truncf .bf16 g hlt) (truncf .bf16 w2 hlt) p k)

end Cert.LibSoftmaxKernel

end
-- ==== Proof.KernelBlocks.lean ====
/-
  What the two kernel bodies compute from the blocks they load, at the ideal values, as whole-block equations.
  The first body multiplies a block of rows of the features by the weights: the matrix product of the block.
  The second body's first store is the rectified affine map of a block of adjacency rows against the support and
  the bias row; its second store is the softmax of every row of the read-out of that hidden block against the
  transposed read-out weights. A change of float format is the identity on extended reals, and a shape cast of an
  array to its own shape is the array.
-/
import proofs.«110309_g65816078844311_cont_sun_m_909_18_alg».proof.Proof.Gen.KernelIdeal.Skeleton
import proofs.«110309_g65816078844311_cont_sun_m_909_18_alg».proof.Proof.LibKernelIdx
import proofs.«110309_g65816078844311_cont_sun_m_909_18_alg».proof.Proof.LibSoftmaxKernel

noncomputable section

open scoped BigOperators

namespace Cert.KernelIdeal.Blocks

open Cert.KernelIdeal Cert.KernelIdeal.Gen Cert.Mlp Cert.GcnSm Idealize.ShloMosaic Idealize.ShloMosaic.ValueIdx

/-- The support body: the block of feature rows times the weights. -/
theorem support_block (x0 : Vec Ideal S1000x512 .f32) (x1 : Vec Ideal S512x512 .f32) :
    k0_pay1 (F := Ideal) x0 x1 = mm x0 x1 := by
  funext i
  obtain ⟨p, j, rfl⟩ : ∃ (p : Fin 1000) (j : Fin 512), i = ix2 p j := ⟨i 0, i 1, eq_ix2 i⟩
  exact Cert.LibKernelIdx.matmul_zero_apply (φ₁ := .bf16) (φ₂ := .bf16) dot_S1000x512_S512x512_S1000x512_1_0_0_1_n_n_wf none
    (truncf .bf16 x0 bitsLt_bf16_f32) (truncf .bf16 x1 bitsLt_bf16_f32) p j

/-- The hidden block: max (A-block · support + bias row, 0). -/
theorem hidden_block (a : Vec Ideal S400x10000 .f32) (s : Vec Ideal S10000x512 .bf16) (b : Vec Ideal S1x512 .f32) :
    k1_pay1 (F := Ideal) a s b = rect (lin a s b) := by
  funext i
  obtain ⟨p, j, rfl⟩ : ∃ (p : Fin 400) (j : Fin 512), i = ix2 p j := ⟨i 0, i 1, eq_ix2 i⟩
  have hs : shapeCast S10000x512 s shapeCasts_S10000x512_S10000x512 = s := shapeCast_self _ _
  have hbrow : broadcastTo S400x512 (shapeCast S1x512 b shapeCasts_S1x512_S1x512) broadcasts_S1x512_S400x512 (ix2 p j)
      = b (ix2 (0 : Fin 1) j) := by
    rw [Cert.LibRowForms.broadcastTo_1b_ab_apply _ _ p j (0 : Fin 1), shapeCast_self]
  have hm := Cert.LibKernelIdx.matmul_zero_apply (φ₁ := .bf16) (φ₂ := .bf16) dot_S400x10000_S10000x512_S400x512_1_0_0_1_n_n_wf none
    (truncf .bf16 a bitsLt_bf16_f32) s p j
  show max (matmul (F := Ideal) dot_S400x10000_S10000x512_S400x512_1_0_0_1_n_n none (truncf .bf16 a _) (shapeCast S10000x512 s _)
        (constant (F := Ideal) S400x512 .f32 0x00000000#32) (ix2 p j)
      + broadcastTo S400x512 (shapeCast S1x512 b _) _ (ix2 p j)) (Ideal.ofBits .f32 0x00000000#32) = _
  rw [hs, hbrow]
  exact congrArg (fun z : EReal => max (z + b (ix2 (0 : Fin 1) j)) (Ideal.ofBits .f32 0x00000000#32)) hm

/-- The output block: the softmax of every row of hidden-block · W₂ᵀ + bias row. -/
theorem out_block (a : Vec Ideal S400x10000 .f32) (s : Vec Ideal S10000x512 .bf16) (b : Vec Ideal S1x512 .f32)
    (w2 : Vec Ideal S256x512 .f32) (b2 : Vec Ideal S1x256 .f32) :
    k1_pay2 (F := Ideal) a s b w2 b2 = softmax (lin (k1_pay1 (F := Ideal) a s b) (tr w2) b2) := by
  funext i
  obtain ⟨p, j, rfl⟩ : ∃ (p : Fin 400) (j : Fin 256), i = ix2 p j := ⟨i 0, i 1, eq_ix2 i⟩
  unfold k1_pay2
  generalize k1_pay1 (F := Ideal) a s b = g
  refine (Cert.LibSoftmaxKernel.softmax_chain_apply _ reduces_S400x256_S400 (.inl rfl) rfl rfl shapeCasts_S400_S400x1
    broadcasts_S400x1_S400x256 p j).trans ?_
  exact congrArg (fun σ : Fin 256 → EReal => softmaxAt σ j) (funext fun k =>
    Cert.LibSoftmaxKernel.readout_apply dot_S400x512_S256x512_S400x256_1_1_0_0_n_n_wf bitsLt_bf16_f32
      shapeCasts_S1x256_S1x256 broadcasts_S1x256_S400x256 g w2 b2 p k)

end Cert.KernelIdeal.Blocks

end
-- ==== Proof.LibMlpBlocks.lean ====
/-
  Blocks of rows. A pipelined kernel meets a tall matrix a block of rows at a time; a map that is local to a row —
  an affine layer, the rectifier, an entrywise sum, and what is composed of them — then takes the block of rows s, s + 1, … of its operand to the block of the same rows
  of its result. `RowsAt s x' x` says that `x'` holds the rows s, s + 1, … of `x`, through the VALUES of the
  coordinates, so that it can be applied to indices whose types only reduce to a matrix's; the lemmas carry it through
  the entrywise sum, the rectified sum, the two-layer perceptron and the head, the weights and biases being the same
  whole arrays on both sides (a block that is the whole array: `RowsAt.whole`). General in the extents.
-/
import Mathlib.Tactic.FinCases
import Idealize.ShloMosaic.PureOps.Ideal
import Idealize.ShloMosaic.Lib.ValueIdx
import proofs.«110309_g65816078844311_cont_sun_m_909_18_alg».proof.Proof.LibMlpSpec

noncomputable section

namespace Cert.Mlp

open Idealize.ShloMosaic Idealize.ShloMosaic.ValueIdx

/-- `x'` holds the rows `s, s + 1, …` of `x`: entry (p', q) of `x'` is entry (s + p', q) of `x`. Said through the values
    of the coordinates, so that it applies to indices whose types only reduce to these. -/
def RowsAt {n N a : ℕ} (s : ℕ) (x' : Mat n a) (x : Mat N a) : Prop :=
  ∀ (y : (⟨2, ![n, a]⟩ : Shape).Idx) (k : (⟨2, ![N, a]⟩ : Shape).Idx),
    (k 0).val = s + (y 0).val → (k 1).val = (y 1).val → x' y = x k

/-- The block of all the rows is the array. -/
theorem RowsAt.whole {n a : ℕ} {x' x : Mat n a} (H : RowsAt 0 x' x) : x' = x :=
  funext fun y => H y y (Nat.zero_add _).symm rfl

/-- Row `p'` of the block is row `s + p'` of the array. -/
theorem RowsAt.row {n N a : ℕ} {s : ℕ} {x' : Mat n a} {x : Mat N a} (H : RowsAt s x' x) (p' : Fin n) (p : Fin N)
    (hp : p.val = s + p'.val) (c : Fin a) : x' (ix2 p' c) = x (ix2 p c) := H _ _ hp rfl

/-- A map that is local to a row takes blocks of rows to blocks of rows. -/
theorem RowsAt.of_rows {n N a o : ℕ} {s : ℕ} {x' : Mat n a} {x : Mat N a} (f' : Mat n o) (f : Mat N o)
    (hf : ∀ (p' : Fin n) (p : Fin N), p.val = s + p'.val → ∀ j : Fin o, f' (ix2 p' j) = f (ix2 p j)) : RowsAt s f' f := by
  intro y k h0 h1
  have hcol : y 1 = k 1 := Fin.ext h1.symm
  rw [eq_ix2 y, eq_ix2 k, hcol]
  exact hf (y 0) (k 0) h0 (k 1)

theorem plus_rowsAt {n N d : ℕ} {s : ℕ} {a' x' : Mat n d} {a x : Mat N d} (Ha : RowsAt s a' a) (Hx : RowsAt s x' x) :
    RowsAt s (plus a' x') (plus a x) :=
  RowsAt.of_rows (x' := a') (x := a) _ _ fun p' p hp j => plus_rows a x a' x' p p' j (Ha.row p' p hp j) (Hx.row p' p hp j)

theorem msg_rowsAt {n N d : ℕ} {s : ℕ} {a' x' : Mat n d} {a x : Mat N d} (Ha : RowsAt s a' a) (Hx : RowsAt s x' x) :
    RowsAt s (msg a' x') (msg a x) :=
  RowsAt.of_rows (x' := a') (x := a) _ _ fun p' p hp j => msg_rows a x a' x' p p' j (Ha.row p' p hp j) (Hx.row p' p hp j)

theorem mlp2_rowsAt {n N a h o : ℕ} {s : ℕ} {x' : Mat n a} {x : Mat N a} (H : RowsAt s x' x)
    {w1' w1 : Mat a h} {b1' b1 : Mat 1 h} {w2' w2 : Mat h o} {b2' b2 : Mat 1 o}
    (hw1 : w1' = w1) (hb1 : b1' = b1) (hw2 : w2' = w2) (hb2 : b2' = b2) :
    RowsAt s (mlp2 x' w1' b1' w2' b2') (mlp2 x w1 b1 w2 b2) := by
  subst hw1 hb1 hw2 hb2
  exact RowsAt.of_rows (x' := x') (x := x) _ _ fun p' p hp j => mlp2_rows x x' _ _ _ _ p p' (H.row p' p hp) j

theorem head_rowsAt {n N a h o : ℕ} {s : ℕ} {x' : Mat n a} {x : Mat N a} (H : RowsAt s x' x)
    {w1' w1 : Mat a h} {b1' b1 : Mat 1 h} {w2' w2 : Mat h o} {b2' b2 : Mat 1 o}
    (hw1 : w1' = w1) (hb1 : b1' = b1) (hw2 : w2' = w2) (hb2 : b2' = b2) :
    RowsAt s (head x' w1' b1' w2' b2') (head x w1 b1 w2 b2) := by
  subst hw1 hb1 hw2 hb2
  exact RowsAt.of_rows (x' := x') (x := x) _ _ fun p' p hp j => head_rows x x' _ _ _ _ p p' (H.row p' p hp) j

/-- The offsets of an access to a whole block of a matrix. -/
theorem zero_offsets : (![0, 0] : Fin 2 → Nat) = fun _ => 0 := funext fun a => by fin_cases a <;> rfl

end Cert.Mlp

end
-- ==== Proof.SupportValue.lean ====
/-
  The support array. The first region walks the features ten blocks of a thousand rows at a time; at point t its
  input window holds rows 1000 t, …, 1000 t + 999 of the features, its second window the whole weight matrix, and
  what it writes back is the product of the two: the same rows of the product of the whole arrays, since a row of
  a product depends on the same row of the left factor only. The ten blocks cover the array (row r lies in block
  r / 1000), so after the region the array is the product, whatever it held before.
-/
import proofs.«110309_g65816078844311_cont_sun_m_909_18_alg».proof.Proof.Gen.KernelIdeal.Frame
import proofs.«110309_g65816078844311_cont_sun_m_909_18_alg».proof.Proof.KernelBlocks
import proofs.«110309_g65816078844311_cont_sun_m_909_18_alg».proof.Proof.LibMlpBlocks
import Idealize.ShloMosaic.Lib.Pipeline.Value

noncomputable section

namespace Cert.KernelIdeal.SupportValue

open Cert.KernelIdeal Cert.KernelIdeal.Gen Cert.Mlp Cert.GcnSm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices over the grid: the row windows move with the point, the weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first window's block at point t is rows 1000 t, … of the features. -/
theorem xblock_rows (c : Dev nD) (t : Fin cfg0.N) :
    RowsAt (1000 * t.val) (iblk0 V c 0 t : Vec Ideal S1000x512 .f32) (V c main_arg0 : Mat 10000 512) := by
  intro y k h0 h1
  obtain ⟨e0, e1, -⟩ := idx0 t
  unfold iblk0
  rw [View.read_apply]
  refine congrArg (V c main_arg0) ?_
  funext a
  apply Fin.ext
  match a with
  | ⟨0, _⟩ => show win0_0.index t 0 * 1000 + 1 * (y 0).val = (k 0).val; omega
  | ⟨1, _⟩ => show win0_0.index t 1 * 512 + 1 * (y 1).val = (k 1).val; omega

/-- The second window's block is the whole weight matrix, at every point. -/
theorem wblock_whole (c : Dev nD) (t : Fin cfg0.N) :
    (iblk0 V c 1 t : Vec Ideal S512x512 .f32) = (V c main_arg2 : Mat 512 512) := by
  obtain ⟨-, -, e2, e3, -⟩ := idx0 t
  funext y
  unfold iblk0
  rw [View.read_apply]
  refine congrArg (V c main_arg2) ?_
  funext a
  apply Fin.ext
  match a with
  | ⟨0, _⟩ => show win0_1.index t 0 * 512 + 1 * (y 0).val = (y 0).val; omega
  | ⟨1, _⟩ => show win0_1.index t 1 * 512 + 1 * (y 1).val = (y 1).val; omega

/-- What point t writes back is block t of the product of the whole arrays. -/
theorem flushed_support (c : Dev nD) (t : Fin cfg0.N) :
    (dat0 V c).flushed 2 t
      = ((cfg0.win 2).blk t).view.read (Elt Ideal) (mm (V c main_arg0 : Mat 10000 512) (V c main_arg2 : Mat 512 512)) := by
  show (cfg0.win 2).cut (grid0.coords t) ((dat0 V c).after 2 t) = _
  rw [after0_2]
  unfold out0_2
  rw [View.canon_unit_zero zero_offsets]
  simp only [View.ld_unit_zero (S := S1000x512) zero_offsets, View.ld_unit_zero (S := S512x512) zero_offsets]
  rw [Cert.KernelIdeal.Blocks.support_block, wblock_whole V c t]
  have H : RowsAt (1000 * t.val) (mm (iblk0 V c 0 t : Vec Ideal S1000x512 .f32) (V c main_arg2 : Mat 512 512))
      (mm (V c main_arg0 : Mat 10000 512) (V c main_arg2 : Mat 512 512)) :=
    RowsAt.of_rows (x' := (iblk0 V c 0 t : Vec Ideal S1000x512 .f32)) (x := (V c main_arg0 : Mat 10000 512)) _ _
      fun p' p hp j => mm_rows _ _ _ p p' ((xblock_rows V c t).row p' p hp) j
  obtain ⟨-, -, -, -, e4, e5⟩ := idx0 t
  funext y
  refine H y (((cfg0.win 2).blk t).view.emb y) ?_ ?_
  · show win0_2.index t 0 * 1000 + 1 * (y 0).val = 1000 * t.val + (y 0).val; omega
  · show win0_2.index t 1 * 512 + 1 * (y 1).val = (y 1).val; omega

/-- An index of the array is in point t's block iff each coordinate is in the block's range on its axis. -/
theorem mem_blk (t : Fin cfg0.N) (i : S10000x512.Idx) :
    i ∈ ((cfg0.win 2).blk t).view.set ↔ ∀ a : Fin 2, win0_2.index t a * S1000x512.size a ≤ (i a).val
      ∧ (i a).val < win0_2.index t a * S1000x512.size a + S1000x512.size a := by
  show i ∈ ((View.whole main_v0).slice (win0_2.rect t)).set ↔ _
  rw [View.set_slice_whole, Rect.mem_set_unit]
  exact Iff.rfl

/-- Every index of the array is written back by some point: row r by point r / 1000. -/
theorem cover (i : S10000x512.Idx) :
    ∃ t : Fin cfg0.N, (cfg0.win 2).flush t = true ∧ i ∈ ((cfg0.win 2).blk t).view.set := by
  have h0 : (i 0).val < 10000 := idx2_lt0 i
  have h1 : (i 1).val < 512 := idx2_lt1 i
  have hN : cfg0.N = 10 := N_0
  obtain ⟨t, ht⟩ : ∃ t : Fin cfg0.N, t.val = (i 0).val / 1000 := ⟨⟨(i 0).val / 1000, by rw [hN]; omega⟩, rfl⟩
  obtain ⟨-, -, -, -, e4, e5⟩ := idx0 t
  refine ⟨t, flush0_2 t, ?_⟩
  rw [mem_blk]
  intro a
  match a with
  | ⟨0, _⟩ => show win0_2.index t 0 * 1000 ≤ (i 0).val ∧ (i 0).val < win0_2.index t 0 * 1000 + 1000; omega
  | ⟨1, _⟩ => show win0_2.index t 1 * 512 ≤ (i 1).val ∧ (i 1).val < win0_2.index t 1 * 512 + 512; omega

/-- After the region the support array is the product of the features and the weights as the region found them. -/
theorem support_final (c : Dev nD) :
    (dat0 V c).arrAt 2 cfg0.N = mm (V c main_arg0 : Mat 10000 512) (V c main_arg2 : Mat 512 512) :=
  (dat0 V c).arrAt_eq_of_cover 2 (mm (V c main_arg0 : Mat 10000 512) (V c main_arg2 : Mat 512 512))
    (fun t _ => flushed_support V c t) cover

end Cert.KernelIdeal.SupportValue

end
-- ==== Proof.LayerValue.lean ====
/-
  The two result arrays of the second region, as functions of the arrays the region finds. The region walks the
  adjacency matrix twenty-five blocks of four hundred rows at a time; at point t its first window holds rows
  400 t, …, 400 t + 399 of the adjacency matrix, and the support, the bias row, the read-out weights and the read-out
  bias row are whole at every point. What it writes back to the first result is the rectified affine map of those
  adjacency rows, to the second the softmax of every row of the read-out of that: both maps are local to a row, so
  the blocks written back are the same rows of the maps of the whole arrays. The twenty-five blocks cover each
  result array (row r lies in block r / 400).
-/
import proofs.«110309_g65816078844311_cont_sun_m_909_18_alg».proof.Proof.Gen.KernelIdeal.Frame
import proofs.«110309_g65816078844311_cont_sun_m_909_18_alg».proof.Proof.KernelBlocks
import proofs.«110309_g65816078844311_cont_sun_m_909_18_alg».proof.Proof.LibMlpBlocks
import Idealize.ShloMosaic.Lib.Pipeline.Value

noncomputable section

namespace Cert.KernelIdeal.LayerValue

open Cert.KernelIdeal Cert.KernelIdeal.Gen Cert.Mlp Cert.GcnSm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices over the grid: the row windows move with the point, the others stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The first window's block at point t is rows 400 t, … of the adjacency matrix. -/
theorem adj_rows (c : Dev nD) (t : Fin cfg1.N) :
    RowsAt (400 * t.val) (iblk1 V c 0 t : Vec Ideal S400x10000 .f32) (V c main_arg1 : Mat 10000 10000) := by
  intro y k h0 h1
  obtain ⟨e0, e1, -⟩ := idx1 t
  unfold iblk1
  rw [View.read_apply]
  refine congrArg (V c main_arg1) ?_
  funext a
  apply Fin.ext
  match a with
  | ⟨0, _⟩ => show win1_0.index t 0 * 400 + 1 * (y 0).val = (k 0).val; omega
  | ⟨1, _⟩ => show win1_0.index t 1 * 10000 + 1 * (y 1).val = (k 1).val; omega

/-- The support window's block is the whole support array, at every point. -/
theorem support_whole (c : Dev nD) (t : Fin cfg1.N) :
    (iblk1 V c 1 t : Vec Ideal S10000x512 .bf16) = (V c main_v0 : Vec Ideal S10000x512 .bf16) := by
  obtain ⟨-, -, e2, e3, -⟩ := idx1 t
  funext y
  unfold iblk1
  rw [View.read_apply]
  refine congrArg (V c main_v0) ?_
  funext a
  apply Fin.ext
  match a with
  | ⟨0, _⟩ => show win1_1.index t 0 * 10000 + 1 * (y 0).val = (y 0).val; omega
  | ⟨1, _⟩ => show win1_1.index t 1 * 512 + 1 * (y 1).val = (y 1).val; omega

/-- The bias-row window's block is the whole bias row. -/
theorem bias1_whole (c : Dev nD) (t : Fin cfg1.N) :
    (iblk1 V c 2 t : Vec Ideal S1x512 .f32) = (V c main_v1 : Vec Ideal S1x512 .f32) := by
  obtain ⟨-, -, -, -, e4, e5, -⟩ := idx1 t
  funext y
  unfold iblk1
  rw [View.read_apply]
  refine congrArg (V c main_v1) ?_
  funext a
  apply Fin.ext
  match a with
  | ⟨0, _⟩ => show win1_2.index t 0 * 1 + 1 * (y 0).val = (y 0).val; omega
  | ⟨1, _⟩ => show win1_2.index t 1 * 512 + 1 * (y 1).val = (y 1).val; omega

/-- The read-out weights' window's block is the whole weight matrix. -/
theorem w2_whole (c : Dev nD) (t : Fin cfg1.N) :
    (iblk1 V c 3 t : Vec Ideal S256x512 .f32) = (V c main_arg4 : Vec Ideal S256x512 .f32) := by
  obtain ⟨-, -, -, -, -, -, e6, e7, -⟩ := idx1 t
  funext y
  unfold iblk1
  rw [View.read_apply]
  refine congrArg (V c main_arg4) ?_
  funext a
  apply Fin.ext
  match a with
  | ⟨0, _⟩ => show win1_3.index t 0 * 256 + 1 * (y 0).val = (y 0).val; omega
  | ⟨1, _⟩ => show win1_3.index t 1 * 512 + 1 * (y 1).val = (y 1).val; omega

/-- The read-out bias row's window's block is the whole row. -/
theorem bias2_whole (c : Dev nD) (t : Fin cfg1.N) :
    (iblk1 V c 4 t : Vec Ideal S1x256 .f32) = (V c main_v2 : Vec Ideal S1x256 .f32) := by
  obtain ⟨-, -, -, -, -, -, -, -, e8, e9, -⟩ := idx1 t
  funext y
  unfold iblk1
  rw [View.read_apply]
  refine congrArg (V c main_v2) ?_
  funext a
  apply Fin.ext
  match a with
  | ⟨0, _⟩ => show win1_4.index t 0 * 1 + 1 * (y 0).val = (y 0).val; omega
  | ⟨1, _⟩ => show win1_4.index t 1 * 256 + 1 * (y 1).val = (y 1).val; omega

/-- The hidden layer of the arrays the region finds. -/
abbrev hiddenOf (c : Dev nD) : Mat 10000 512 :=
  rect (lin (V c main_arg1 : Mat 10000 10000) (V c main_v0 : Vec Ideal S10000x512 .bf16) (V c main_v1 : Vec Ideal S1x512 .f32))

/-- The class probabilities of the arrays the region finds. -/
abbrev outOf (c : Dev nD) : Mat 10000 256 :=
  softmax (lin (hiddenOf V c) (tr (V c main_arg4 : Mat 256 512)) (V c main_v2 : Vec Ideal S1x256 .f32))

/-- The hidden block of the adjacency rows of point t is the same rows of the hidden layer. -/
theorem hidden_rows (c : Dev nD) (t : Fin cfg1.N) :
    RowsAt (400 * t.val)
      (rect (lin (iblk1 V c 0 t : Vec Ideal S400x10000 .f32) (V c main_v0 : Vec Ideal S10000x512 .bf16)
        (V c main_v1 : Vec Ideal S1x512 .f32)))
      (hiddenOf V c) :=
  RowsAt.of_rows (x' := (iblk1 V c 0 t : Vec Ideal S400x10000 .f32)) (x := (V c main_arg1 : Mat 10000 10000)) _ _
    fun p' p hp j => rect_rows _ _ p p' j (lin_rows _ _ _ _ p p' ((adj_rows V c t).row p' p hp) j)

/-- What point t writes back to the first result is block t of the hidden layer. -/
theorem flushed_hidden (c : Dev nD) (t : Fin cfg1.N) :
    (dat1 V c).flushed 5 t = ((cfg1.win 5).blk t).view.read (Elt Ideal) (hiddenOf V c) := by
  show (cfg1.win 5).cut (grid1.coords t) ((dat1 V c).after 5 t) = _
  rw [after1_5]
  unfold out1_5
  rw [View.canon_unit_zero zero_offsets]
  simp only [View.ld_unit_zero (S := S400x10000) zero_offsets, View.ld_unit_zero (S := S10000x512) zero_offsets,
    View.ld_unit_zero (S := S1x512) zero_offsets]
  rw [Cert.KernelIdeal.Blocks.hidden_block, support_whole V c t, bias1_whole V c t]
  have H := hidden_rows V c t
  obtain ⟨-, -, -, -, -, -, -, -, -, -, e10, e11, -⟩ := idx1 t
  funext y
  refine H y (((cfg1.win 5).blk t).view.emb y) ?_ ?_
  · show win1_5.index t 0 * 400 + 1 * (y 0).val = 400 * t.val + (y 0).val; omega
  · show win1_5.index t 1 * 512 + 1 * (y 1).val = (y 1).val; omega

/-- What point t writes back to the second result is block t of the class probabilities. -/
theorem flushed_out (c : Dev nD) (t : Fin cfg1.N) :
    (dat1 V c).flushed 6 t = ((cfg1.win 6).blk t).view.read (Elt Ideal) (outOf V c) := by
  show (cfg1.win 6).cut (grid1.coords t) ((dat1 V c).after 6 t) = _
  rw [after1_6]
  unfold out1_6
  rw [View.canon_unit_zero zero_offsets]
  simp only [View.ld_unit_zero (S := S400x10000) zero_offsets, View.ld_unit_zero (S := S10000x512) zero_offsets,
    View.ld_unit_zero (S := S1x512) zero_offsets, View.ld_unit_zero (S := S256x512) zero_offsets,
    View.ld_unit_zero (S := S1x256) zero_offsets]
  rw [Cert.KernelIdeal.Blocks.out_block, Cert.KernelIdeal.Blocks.hidden_block, support_whole V c t, bias1_whole V c t,
    w2_whole V c t, bias2_whole V c t]
  have H : RowsAt (400 * t.val)
      (softmax (lin (rect (lin (iblk1 V c 0 t : Vec Ideal S400x10000 .f32) (V c main_v0 : Vec Ideal S10000x512 .bf16)
          (V c main_v1 : Vec Ideal S1x512 .f32))) (tr (V c main_arg4 : Mat 256 512)) (V c main_v2 : Vec Ideal S1x256 .f32)))
      (outOf V c) :=
    RowsAt.of_rows (x' := (iblk1 V c 0 t : Vec Ideal S400x10000 .f32)) (x := (V c main_arg1 : Mat 10000 10000)) _ _
      fun p' p hp j => softmax_rows _ _ p p'
        (fun k => lin_rows _ _ _ _ p p' (fun c' => (hidden_rows V c t).row p' p hp c') k) j
  obtain ⟨-, -, -, -, -, -, -, -, -, -, -, -, e12, e13⟩ := idx1 t
  funext y
  refine H y (((cfg1.win 6).blk t).view.emb y) ?_ ?_
  · show win1_6.index t 0 * 400 + 1 * (y 0).val = 400 * t.val + (y 0).val; omega
  · show win1_6.index t 1 * 256 + 1 * (y 1).val = (y 1).val; omega

/-- An index of the first result is in point t's block iff each coordinate is in the block's range on its axis. -/
theorem mem_blk5 (t : Fin cfg1.N) (i : S10000x512.Idx) :
    i ∈ ((cfg1.win 5).blk t).view.set ↔ ∀ a : Fin 2, win1_5.index t a * S400x512.size a ≤ (i a).val
      ∧ (i a).val < win1_5.index t a * S400x512.size a + S400x512.size a := by
  show i ∈ ((View.whole main_v3_0).slice (win1_5.rect t)).set ↔ _
  rw [View.set_slice_whole, Rect.mem_set_unit]
  exact Iff.rfl

/-- The same for the second result. -/
theorem mem_blk6 (t : Fin cfg1.N) (i : S10000x256.Idx) :
    i ∈ ((cfg1.win 6).blk t).view.set ↔ ∀ a : Fin 2, win1_6.index t a * S400x256.size a ≤ (i a).val
      ∧ (i a).val < win1_6.index t a * S400x256.size a + S400x256.size a := by
  show i ∈ ((View.whole main_v3_1).slice (win1_6.rect t)).set ↔ _
  rw [View.set_slice_whole, Rect.mem_set_unit]
  exact Iff.rfl

/-- Every index of the first result is written back by some point: row r by point r / 400. -/
theorem cover5 (i : S10000x512.Idx) :
    ∃ t : Fin cfg1.N, (cfg1.win 5).flush t = true ∧ i ∈ ((cfg1.win 5).blk t).view.set := by
  have h0 : (i 0).val < 10000 := idx2_lt0 i
  have h1 : (i 1).val < 512 := idx2_lt1 i
  have hN : cfg1.N = 25 := N_1
  obtain ⟨t, ht⟩ : ∃ t : Fin cfg1.N, t.val = (i 0).val / 400 := ⟨⟨(i 0).val / 400, by rw [hN]; omega⟩, rfl⟩
  obtain ⟨-, -, -, -, -, -, -, -, -, -, e10, e11, -⟩ := idx1 t
  refine ⟨t, flush1_5 t, ?_⟩
  rw [mem_blk5]
  intro a
  match a with
  | ⟨0, _⟩ => show win1_5.index t 0 * 400 ≤ (i 0).val ∧ (i 0).val < win1_5.index t 0 * 400 + 400; omega
  | ⟨1, _⟩ => show win1_5.index t 1 * 512 ≤ (i 1).val ∧ (i 1).val < win1_5.index t 1 * 512 + 512; omega

/-- Every index of the second result is written back by some point. -/
theorem cover6 (i : S10000x256.Idx) :
    ∃ t : Fin cfg1.N, (cfg1.win 6).flush t = true ∧ i ∈ ((cfg1.win 6).blk t).view.set := by
  have h0 : (i 0).val < 10000 := idx2_lt0 i
  have h1 : (i 1).val < 256 := idx2_lt1 i
  have hN : cfg1.N = 25 := N_1
  obtain ⟨t, ht⟩ : ∃ t : Fin cfg1.N, t.val = (i 0).val / 400 := ⟨⟨(i 0).val / 400, by rw [hN]; omega⟩, rfl⟩
  obtain ⟨-, -, -, -, -, -, -, -, -, -, -, -, e12, e13⟩ := idx1 t
  refine ⟨t, flush1_6 t, ?_⟩
  rw [mem_blk6]
  intro a
  match a with
  | ⟨0, _⟩ => show win1_6.index t 0 * 400 ≤ (i 0).val ∧ (i 0).val < win1_6.index t 0 * 400 + 400; omega
  | ⟨1, _⟩ => show win1_6.index t 1 * 256 ≤ (i 1).val ∧ (i 1).val < win1_6.index t 1 * 256 + 256; omega

/-- After the region the first result is the hidden layer of the arrays the region found. -/
theorem hidden_final (c : Dev nD) : (dat1 V c).arrAt 5 cfg1.N = hiddenOf V c :=
  (dat1 V c).arrAt_eq_of_cover 5 (hiddenOf V c) (fun t _ => flushed_hidden V c t) cover5

/-- After the region the second result is the class probabilities of the arrays the region found. -/
theorem out_final (c : Dev nD) : (dat1 V c).arrAt 6 cfg1.N = outOf V c :=
  (dat1 V c).arrAt_eq_of_cover 6 (outOf V c) (fun t _ => flushed_out V c t) cover6

end Cert.KernelIdeal.LayerValue

end
-- ==== Proof.KernelResult.lean ====
/-
  The idealized kernel program's run with its two results as the layer's functions of the arguments. The second
  region finds the adjacency matrix and the read-out weights as launched (no operation before it writes them), the
  support array at the product of the features and the weights (the first region's result, which the two reshapes
  do not touch), and the two bias rows at the bias vectors reshaped to one row: a vector cast to a one-row matrix
  reads the vector at the column. With these the region's two result arrays are the hidden layer and the class
  probabilities of the arguments.
-/
import proofs.«110309_g65816078844311_cont_sun_m_909_18_alg».proof.Proof.KernelRun
import proofs.«110309_g65816078844311_cont_sun_m_909_18_alg».proof.Proof.SupportValue
import proofs.«110309_g65816078844311_cont_sun_m_909_18_alg».proof.Proof.LayerValue
import Idealize.ShloMosaic.Lib.StableHlo.Run

noncomputable section

namespace Cert.KernelIdeal.Result

open Cert.KernelIdeal Cert.KernelIdeal.Gen Cert.Mlp Cert.GcnSm
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- A vector cast to a one-row matrix is the vector read at the column. -/
theorem shapeCast_row {d : ℕ} (v : FVec Ideal (⟨1, ![d]⟩ : Shape) .f32) (h : (⟨1, ![d]⟩ : Shape).ShapeCasts ⟨2, ![1, d]⟩) :
    shapeCast ⟨2, ![1, d]⟩ v h = rowOf v := by
  funext i
  obtain ⟨u, q, rfl⟩ : ∃ (u : Fin 1) (q : Fin d), i = ix2 u q := ⟨i 0, i 1, eq_ix2 i⟩
  refine shapeCast_apply v h (ix2 u q) (ix1 q) ?_
  rw [Shape.rowMajor_val_two, Shape.rowMajor_val_one]
  show q.val = u.val * d + q.val
  have hu : u.val = 0 := by omega
  rw [hu, Nat.zero_mul, Nat.zero_add]

/-- The second region finds the adjacency matrix as launched. -/
theorem adj_entry (c : Dev nD) : V2 m ρ c main_arg1 = m ((c.tc : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := W1_of_ne m ρ c main_arg1 (by decide)
    _ = m ((c.tc : Thread nD τ).loc main_arg1) := rfl

/-- The second region finds the read-out weights as launched. -/
theorem w2_entry (c : Dev nD) : V2 m ρ c main_arg4 = m ((c.tc : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := W1_of_ne m ρ c main_arg4 (by decide)
    _ = m ((c.tc : Thread nD τ).loc main_arg4) := rfl

/-- The second region finds the support array at the product of the features and the weights. -/
theorem support_entry (c : Dev nD) :
    (V2 m ρ c main_v0 : Vec Ideal S10000x512 .bf16) = mm (m ((c.tc : Thread nD τ).loc main_arg0)) (m ((c.tc : Thread nD τ).loc main_arg2)) :=
  calc W2 m ρ c (Proc.devRef .tc main_v0)
    _ = W1 m ρ c (Proc.devRef .tc main_v0) := StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V0 m ρ) c).arrAt 2 cfg0.N := W1_arr m ρ c 2
    _ = mm (m ((c.tc : Thread nD τ).loc main_arg0)) (m ((c.tc : Thread nD τ).loc main_arg2)) := Cert.KernelIdeal.SupportValue.support_final (V0 m ρ) c

/-- The second region finds the first bias row at the bias vector taken as a one-row matrix. -/
theorem bias1_entry (c : Dev nD) :
    (V2 m ρ c main_v1 : Vec Ideal S1x512 .f32) = rowOf ((m ((c.tc : Thread nD τ).loc main_arg3)) : FVec Ideal S512 .f32) := by
  have e : (V2 m ρ c main_v1 : Vec Ideal S1x512 .f32)
      = shapeCast S1x512 (W1 m ρ c (Proc.devRef .tc main_arg3) : FVec Ideal S512 .f32) shapeCasts_S512_S1x512 := by
    show StableHlo.after hostOps1 (W1 m ρ c) (Proc.devRef .tc main_v1) = _
    after_results
    rfl
  rw [e, W1_of_ne m ρ c main_arg3 (by decide)]
  exact shapeCast_row _ _

/-- The second region finds the read-out bias row at the bias vector taken as a one-row matrix. -/
theorem bias2_entry (c : Dev nD) :
    (V2 m ρ c main_v2 : Vec Ideal S1x256 .f32) = rowOf ((m ((c.tc : Thread nD τ).loc main_arg5)) : FVec Ideal S256 .f32) := by
  have e : (V2 m ρ c main_v2 : Vec Ideal S1x256 .f32)
      = shapeCast S1x256 (W1 m ρ c (Proc.devRef .tc main_arg5) : FVec Ideal S256 .f32) shapeCasts_S256_S1x256 := by
    show StableHlo.after hostOps1 (W1 m ρ c) (Proc.devRef .tc main_v2) = _
    after_results
    rfl
  rw [e, W1_of_ne m ρ c main_arg5 (by decide)]
  exact shapeCast_row _ _

/-- The hidden layer of what the second region finds is the hidden layer of the arguments. -/
theorem hidden_entry (c : Dev nD) :
    Cert.KernelIdeal.LayerValue.hiddenOf (V2 m ρ) c = hidden (m ((c.tc : Thread nD τ).loc main_arg0)) (m ((c.tc : Thread nD τ).loc main_arg1)) (m ((c.tc : Thread nD τ).loc main_arg2)) ((m ((c.tc : Thread nD τ).loc main_arg3)) : FVec Ideal S512 .f32) := by
  show rect (lin (V2 m ρ c main_arg1 : Mat 10000 10000) (V2 m ρ c main_v0 : Vec Ideal S10000x512 .bf16)
    (V2 m ρ c main_v1 : Vec Ideal S1x512 .f32)) = rect (lin (m ((c.tc : Thread nD τ).loc main_arg1)) (mm (m ((c.tc : Thread nD τ).loc main_arg0)) (m ((c.tc : Thread nD τ).loc main_arg2))) (rowOf ((m ((c.tc : Thread nD τ).loc main_arg3)) : FVec Ideal S512 .f32)))
  rw [adj_entry m ρ c, support_entry m ρ c, bias1_entry m ρ c]

/-- The class probabilities of what the second region finds are those of the arguments. -/
theorem out_entry (c : Dev nD) :
    Cert.KernelIdeal.LayerValue.outOf (V2 m ρ) c
      = out (m ((c.tc : Thread nD τ).loc main_arg0)) (m ((c.tc : Thread nD τ).loc main_arg1)) (m ((c.tc : Thread nD τ).loc main_arg2)) ((m ((c.tc : Thread nD τ).loc main_arg3)) : FVec Ideal S512 .f32) (m ((c.tc : Thread nD τ).loc main_arg4)) ((m ((c.tc : Thread nD τ).loc main_arg5)) : FVec Ideal S256 .f32) := by
  show softmax (lin (Cert.KernelIdeal.LayerValue.hiddenOf (V2 m ρ) c) (tr (V2 m ρ c main_arg4 : Mat 256 512))
    (V2 m ρ c main_v2 : Vec Ideal S1x256 .f32)) = softmax (lin (hidden (m ((c.tc : Thread nD τ).loc main_arg0)) (m ((c.tc : Thread nD τ).loc main_arg1)) (m ((c.tc : Thread nD τ).loc main_arg2)) ((m ((c.tc : Thread nD τ).loc main_arg3)) : FVec Ideal S512 .f32))
      (tr (m ((c.tc : Thread nD τ).loc main_arg4))) (rowOf ((m ((c.tc : Thread nD τ).loc main_arg5)) : FVec Ideal S256 .f32)))
  rw [hidden_entry m ρ c, w2_entry m ρ c, bias2_entry m ρ c]

/-- Every weakly fair execution of the idealized kernel program terminates without a fault, with the first result
    array at the hidden layer and the second at the class probabilities of the arguments, the arguments as launched. -/
theorem run : θ_run defs (onTc (τ := τ) (main (F := Ideal))) ⟨m, fun _ => 0, ρ⟩ (fun r => ∀ c : Dev nD,
      r.2.mem ((c.tc : Thread nD τ).loc main_v3_0) = hidden (m ((c.tc : Thread nD τ).loc main_arg0)) (m ((c.tc : Thread nD τ).loc main_arg1)) (m ((c.tc : Thread nD τ).loc main_arg2)) ((m ((c.tc : Thread nD τ).loc main_arg3)) : FVec Ideal S512 .f32)
      ∧ r.2.mem ((c.tc : Thread nD τ).loc main_v3_1)
          = out (m ((c.tc : Thread nD τ).loc main_arg0)) (m ((c.tc : Thread nD τ).loc main_arg1)) (m ((c.tc : Thread nD τ).loc main_arg2)) ((m ((c.tc : Thread nD τ).loc main_arg3)) : FVec Ideal S512 .f32) (m ((c.tc : Thread nD τ).loc main_arg4)) ((m ((c.tc : Thread nD τ).loc main_arg5)) : FVec Ideal S256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c).1.trans ((Cert.KernelIdeal.LayerValue.hidden_final (V2 m ρ) c).trans (hidden_entry m ρ c)),
       (h c).2.1.trans ((Cert.KernelIdeal.LayerValue.out_final (V2 m ρ) c).trans (out_entry m ρ c)),
       (h c).2.2⟩)
    (Cert.KernelIdeal.OutRun.run_named m ρ)

end Cert.KernelIdeal.Result

end
-- ==== Proof.LibHostDot.lean ====
/-
  The host's `dot_general` of an `[m, k]` by a `[k, n]` matrix (the left operand's second axis contracted with the
  right operand's first, no batch axes), at the ideal values, read at an entry: the sum over the contracted
  coordinate of the products of the entries. General in the extents.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

theorem dotGeneral_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    Host.dotGeneral (⟨[1], [0], [0], [1], [], [], w⟩ : DotDims ⟨2, ![m, k]⟩ ⟨2, ![k, n]⟩ ⟨2, ![m, n]⟩) prec A B (ix2 p j)
      = ∑ c : Fin k, A (ix2 p c) * B (ix2 c j) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibHostDot

end
-- ==== Proof.LibMlpHost.lean ====
/-
  The host's spelling of the row-wise maps of a perceptron, met with their index-by-index definitions (`Cert.Mlp`), as
  equalities of whole arrays over the extended reals:
  * an affine layer — the product of an `[n, a]` by an `[a, h]` matrix (`dot_general`, the left operand's second axis
    contracted with the right operand's first) plus a bias vector broadcast to one row and then down the rows — is `lin`
    at the bias taken as a one-row matrix (`host_lin`);
  * the maximum with the zero word broadcast to the shape is `rect` (`host_rect`); the entrywise sum is `plus`
    (`host_plus`); the rectified sum is `msg` (`host_msg`);
  * two rectified affine layers in a row are `mlp2` (`host_mlp2`); a rectified affine layer then an affine one is `head`
    (`host_head`).
  The contraction's dimension record enters as a variable equal to the record with those axis lists, so that a program's
  named record is met by `rfl`; the broadcasts' side conditions are arbitrary proofs. General in the extents.
-/
import proofs.«110309_g65816078844311_cont_sun_m_909_18_alg».proof.Proof.LibMlpSpec
import proofs.«110309_g65816078844311_cont_sun_m_909_18_alg».proof.Proof.LibHostDot
import Idealize.ShloMosaic.Lib.IdealHost

noncomputable section

open scoped BigOperators

namespace Cert.MlpHost

open Cert.Mlp Cert.LibHostDot Idealize.ShloMosaic Idealize.ShloMosaic.ValueIdx

/-- The zero word as a rank-0 array broadcast to an `[n, h]` array: what the host's rectifier compares against. -/
abbrev zeros {n h : ℕ} (hb0 : (⟨0, ![]⟩ : Shape).BroadcastsInDim ⟨2, ![n, h]⟩ ![]) : Mat n h :=
  broadcastInDim (⟨2, ![n, h]⟩ : Shape) ![] hb0 (constant (F := Ideal) ⟨0, ![]⟩ .f32 0x00000000#32)

/-- A bias vector broadcast to one row and then down the rows. -/
abbrev bias {n h : ℕ} (hb1 : (⟨1, ![h]⟩ : Shape).BroadcastsInDim ⟨2, ![1, h]⟩ ![1])
    (hb2 : (⟨2, ![1, h]⟩ : Shape).BroadcastsInDim ⟨2, ![n, h]⟩ ![0, 1])
    (b : FVec Ideal (⟨1, ![h]⟩ : Shape) .f32) : Mat n h :=
  broadcastInDim (⟨2, ![n, h]⟩ : Shape) ![0, 1] hb2 (broadcastInDim (⟨2, ![1, h]⟩ : Shape) ![1] hb1 b)

/-- The broadcast bias read at an entry: the vector's entry at the column (a column index of a one-column array is 0,
    which is what the broadcast reads on an axis of extent one). -/
theorem bias_apply {n h : ℕ} (hb1 : (⟨1, ![h]⟩ : Shape).BroadcastsInDim ⟨2, ![1, h]⟩ ![1])
    (hb2 : (⟨2, ![1, h]⟩ : Shape).BroadcastsInDim ⟨2, ![n, h]⟩ ![0, 1])
    (b : FVec Ideal (⟨1, ![h]⟩ : Shape) .f32) (p : Fin n) (j : Fin h) :
    bias hb1 hb2 b (ix2 p j) = rowOf b (ix2 (0 : Fin 1) j) := by
  show broadcastInDim (⟨2, ![n, h]⟩ : Shape) ![0, 1] hb2 (broadcastInDim (⟨2, ![1, h]⟩ : Shape) ![1] hb1 b) (ix2 p j) = _
  rw [broadcastInDim_apply ![0, 1] hb2 _ (ix2 p j) (ix2 (0 : Fin 1) j) (fun a => by
        match a with
        | ⟨0, _⟩ => show (0 : ℕ) = if (1 : ℕ) = 1 then 0 else p.val; rw [if_pos rfl]
        | ⟨1, _⟩ =>
          show j.val = if h = 1 then 0 else j.val
          by_cases h1 : h = 1
          · rw [if_pos h1]; have := j.isLt; omega
          · rw [if_neg h1]),
      broadcastInDim_apply ![1] hb1 b (ix2 (0 : Fin 1) j) (ix1 j) (fun a => by
        match a with
        | ⟨0, _⟩ =>
          show j.val = if h = 1 then 0 else j.val
          by_cases h1 : h = 1
          · rw [if_pos h1]; have := j.isLt; omega
          · rw [if_neg h1])]
  rfl

/-- The host's affine layer is `lin`. -/
theorem host_lin {n a h : ℕ}
    (dd : DotDims ⟨2, ![n, a]⟩ ⟨2, ![a, h]⟩ ⟨2, ![n, h]⟩)
    (wf : DotDims.WF ⟨2, ![n, a]⟩ ⟨2, ![a, h]⟩ ⟨2, ![n, h]⟩ [1] [0] [0] [1] [] [])
    (hdd : dd = ⟨[1], [0], [0], [1], [], [], wf⟩)
    (hb1 : (⟨1, ![h]⟩ : Shape).BroadcastsInDim ⟨2, ![1, h]⟩ ![1])
    (hb2 : (⟨2, ![1, h]⟩ : Shape).BroadcastsInDim ⟨2, ![n, h]⟩ ![0, 1])
    (x : Mat n a) (w : Mat a h) (b : FVec Ideal (⟨1, ![h]⟩ : Shape) .f32) :
    addf (Host.dotGeneral dd none x w) (bias hb1 hb2 b) = lin x w (rowOf b) := by
  subst hdd
  have pt : ∀ (p : Fin n) (j : Fin h),
      addf (Host.dotGeneral (⟨[1], [0], [0], [1], [], [], wf⟩ : DotDims ⟨2, ![n, a]⟩ ⟨2, ![a, h]⟩ ⟨2, ![n, h]⟩) none x w)
        (bias hb1 hb2 b) (ix2 p j) = lin x w (rowOf b) (ix2 p j) := fun p j => by
    rw [addf_apply, dotGeneral_apply, bias_apply, lin_apply]
  funext i
  rw [eq_ix2 i]
  exact pt (i 0) (i 1)

/-- The host's rectifier is `rect`. -/
theorem host_rect {n h : ℕ} (hb0 : (⟨0, ![]⟩ : Shape).BroadcastsInDim ⟨2, ![n, h]⟩ ![]) (y : Mat n h) :
    maximumf y (zeros hb0) = rect y := by
  funext i
  show maximumf y (broadcastInDim (⟨2, ![n, h]⟩ : Shape) ![] hb0 (constant (F := Ideal) ⟨0, ![]⟩ .f32 0x00000000#32)) i = _
  rw [maximumf_apply, broadcastInDim_scalar_apply, constant_apply]
  rfl

/-- The host's entrywise sum is `plus`. -/
theorem host_plus {n d : ℕ} (a x : Mat n d) : addf a x = plus a x := rfl

/-- The host's rectified sum is `msg`. -/
theorem host_msg {n d : ℕ} (hb0 : (⟨0, ![]⟩ : Shape).BroadcastsInDim ⟨2, ![n, d]⟩ ![]) (a e : Mat n d) :
    maximumf (addf a e) (zeros hb0) = msg a e := host_rect hb0 _

/-- A rectified affine layer of the host is `rect` of `lin`. -/
theorem host_rect_lin {n a h : ℕ}
    (dd : DotDims ⟨2, ![n, a]⟩ ⟨2, ![a, h]⟩ ⟨2, ![n, h]⟩)
    (wf : DotDims.WF ⟨2, ![n, a]⟩ ⟨2, ![a, h]⟩ ⟨2, ![n, h]⟩ [1] [0] [0] [1] [] [])
    (hdd : dd = ⟨[1], [0], [0], [1], [], [], wf⟩)
    (hb1 : (⟨1, ![h]⟩ : Shape).BroadcastsInDim ⟨2, ![1, h]⟩ ![1])
    (hb2 : (⟨2, ![1, h]⟩ : Shape).BroadcastsInDim ⟨2, ![n, h]⟩ ![0, 1])
    (hb0 : (⟨0, ![]⟩ : Shape).BroadcastsInDim ⟨2, ![n, h]⟩ ![])
    (x : Mat n a) (w : Mat a h) (b : FVec Ideal (⟨1, ![h]⟩ : Shape) .f32) :
    maximumf (addf (Host.dotGeneral dd none x w) (bias hb1 hb2 b)) (zeros hb0) = rect (lin x w (rowOf b)) :=
  (host_rect hb0 _).trans (congrArg rect (host_lin dd wf hdd hb1 hb2 x w b))

/-- Two rectified affine layers of the host in a row are `mlp2`. -/
theorem host_mlp2 {n a h o : ℕ}
    (d1 : DotDims ⟨2, ![n, a]⟩ ⟨2, ![a, h]⟩ ⟨2, ![n, h]⟩)
    (wf1 : DotDims.WF ⟨2, ![n, a]⟩ ⟨2, ![a, h]⟩ ⟨2, ![n, h]⟩ [1] [0] [0] [1] [] [])
    (hd1 : d1 = ⟨[1], [0], [0], [1], [], [], wf1⟩)
    (d2 : DotDims ⟨2, ![n, h]⟩ ⟨2, ![h, o]⟩ ⟨2, ![n, o]⟩)
    (wf2 : DotDims.WF ⟨2, ![n, h]⟩ ⟨2, ![h, o]⟩ ⟨2, ![n, o]⟩ [1] [0] [0] [1] [] [])
    (hd2 : d2 = ⟨[1], [0], [0], [1], [], [], wf2⟩)
    (hb1h : (⟨1, ![h]⟩ : Shape).BroadcastsInDim ⟨2, ![1, h]⟩ ![1])
    (hb2h : (⟨2, ![1, h]⟩ : Shape).BroadcastsInDim ⟨2, ![n, h]⟩ ![0, 1])
    (hb0h : (⟨0, ![]⟩ : Shape).BroadcastsInDim ⟨2, ![n, h]⟩ ![])
    (hb1o : (⟨1, ![o]⟩ : Shape).BroadcastsInDim ⟨2, ![1, o]⟩ ![1])
    (hb2o : (⟨2, ![1, o]⟩ : Shape).BroadcastsInDim ⟨2, ![n, o]⟩ ![0, 1])
    (hb0o : (⟨0, ![]⟩ : Shape).BroadcastsInDim ⟨2, ![n, o]⟩ ![])
    (x : Mat n a) (w1 : Mat a h) (b1 : FVec Ideal (⟨1, ![h]⟩ : Shape) .f32)
    (w2 : Mat h o) (b2 : FVec Ideal (⟨1, ![o]⟩ : Shape) .f32) :
    maximumf (addf (Host.dotGeneral d2 none
        (maximumf (addf (Host.dotGeneral d1 none x w1) (bias hb1h hb2h b1)) (zeros hb0h)) w2) (bias hb1o hb2o b2)) (zeros hb0o)
      = mlp2 x w1 (rowOf b1) w2 (rowOf b2) :=
  (host_rect_lin d2 wf2 hd2 hb1o hb2o hb0o _ w2 b2).trans
    (congrArg (fun y => rect (lin y w2 (rowOf b2))) (host_rect_lin d1 wf1 hd1 hb1h hb2h hb0h x w1 b1))

/-- A rectified affine layer of the host followed by an affine one is `head`. -/
theorem host_head {n a h o : ℕ}
    (d1 : DotDims ⟨2, ![n, a]⟩ ⟨2, ![a, h]⟩ ⟨2, ![n, h]⟩)
    (wf1 : DotDims.WF ⟨2, ![n, a]⟩ ⟨2, ![a, h]⟩ ⟨2, ![n, h]⟩ [1] [0] [0] [1] [] [])
    (hd1 : d1 = ⟨[1], [0], [0], [1], [], [], wf1⟩)
    (d2 : DotDims ⟨2, ![n, h]⟩ ⟨2, ![h, o]⟩ ⟨2, ![n, o]⟩)
    (wf2 : DotDims.WF ⟨2, ![n, h]⟩ ⟨2, ![h, o]⟩ ⟨2, ![n, o]⟩ [1] [0] [0] [1] [] [])
    (hd2 : d2 = ⟨[1], [0], [0], [1], [], [], wf2⟩)
    (hb1h : (⟨1, ![h]⟩ : Shape).BroadcastsInDim ⟨2, ![1, h]⟩ ![1])
    (hb2h : (⟨2, ![1, h]⟩ : Shape).BroadcastsInDim ⟨2, ![n, h]⟩ ![0, 1])
    (hb0h : (⟨0, ![]⟩ : Shape).BroadcastsInDim ⟨2, ![n, h]⟩ ![])
    (hb1o : (⟨1, ![o]⟩ : Shape).BroadcastsInDim ⟨2, ![1, o]⟩ ![1])
    (hb2o : (⟨2, ![1, o]⟩ : Shape).BroadcastsInDim ⟨2, ![n, o]⟩ ![0, 1])
    (x : Mat n a) (w1 : Mat a h) (b1 : FVec Ideal (⟨1, ![h]⟩ : Shape) .f32)
    (w2 : Mat h o) (b2 : FVec Ideal (⟨1, ![o]⟩ : Shape) .f32) :
    addf (Host.dotGeneral d2 none
        (maximumf (addf (Host.dotGeneral d1 none x w1) (bias hb1h hb2h b1)) (zeros hb0h)) w2) (bias hb1o hb2o b2)
      = head x w1 (rowOf b1) w2 (rowOf b2) :=
  (host_lin d2 wf2 hd2 hb1o hb2o _ w2 b2).trans
    (congrArg (fun y => lin y w2 (rowOf b2)) (host_rect_lin d1 wf1 hd1 hb1h hb2h hb0h x w1 b1))

end Cert.MlpHost

end
-- ==== Proof.RefValue.lean ====
/-
  The reference program's two results as the layer's functions of the arguments, at the ideal values. The host's
  products are sums over the contracted coordinate, its bias broadcasts read the bias vector as a one-row matrix, the
  maximum with the broadcast zero is the rectifier, the transpose reads the weights with the coordinates swapped; the
  softmax is read entry by entry: the maximum with negative infinity of the row's maximum is the row's supremum, and
  the row sum from zero is the sum.
-/
import proofs.«110309_g65816078844311_cont_sun_m_909_18_alg».proof.Proof.Gen.ReferenceIdeal.Read
import proofs.«110309_g65816078844311_cont_sun_m_909_18_alg».proof.Proof.LibMlpHost
import proofs.«110309_g65816078844311_cont_sun_m_909_18_alg».proof.Proof.LibMaskedMax
import proofs.«110309_g65816078844311_cont_sun_m_909_18_alg».proof.Proof.LibRowReduce
import proofs.«110309_g65816078844311_cont_sun_m_909_18_alg».proof.Proof.LibGcnSmSpec

noncomputable section

open scoped BigOperators

namespace Cert.ReferenceIdeal.RefValue

open Cert.ReferenceIdeal Cert.ReferenceIdeal.Gen Cert.ReferenceIdeal.Read Cert.Mlp Cert.GcnSm
open Idealize.ShloMosaic Idealize.ShloMosaic.ValueIdx

/-- The host's first product is the support. -/
theorem support_eq (x0 : (⟨S10000x512, .f32⟩ : BufTy).Contents (Elt Ideal)) (x2 : (⟨S512x512, .f32⟩ : BufTy).Contents (Elt Ideal)) :
    val_main_v0 (F := Ideal) x0 x2 = mm x0 x2 := by
  funext i
  obtain ⟨p, j, rfl⟩ : ∃ (p : Fin 10000) (j : Fin 512), i = ix2 p j := ⟨i 0, i 1, eq_ix2 i⟩
  unfold val_main_v0
  exact Cert.LibHostDot.dotGeneral_apply dot_S10000x512_S512x512_S10000x512_1_0_0_1_n_n_wf none x0 x2 p j

/-- The first result is the hidden layer. -/
theorem gc1_eq (x0 : (⟨S10000x512, .f32⟩ : BufTy).Contents (Elt Ideal)) (x1 : (⟨S10000x10000, .f32⟩ : BufTy).Contents (Elt Ideal)) (x2 : (⟨S512x512, .f32⟩ : BufTy).Contents (Elt Ideal)) (x3 : (⟨S512, .f32⟩ : BufTy).Contents (Elt Ideal)) :
    val_main_v5 (F := Ideal) x0 x1 x2 x3 = hidden x0 x1 x2 x3 := by
  unfold val_main_v5 val_main_v4 val_main_v1 val_main_v3 val_main_v2 val_main_call0_v0 val_main_call0_cst
  rw [support_eq]
  exact Cert.MlpHost.host_rect_lin dot_S10000x10000_S10000x512_S10000x512_1_0_0_1_n_n
    dot_S10000x10000_S10000x512_S10000x512_1_0_0_1_n_n_wf rfl bcast_S512_S1x512_1 bcast_S1x512_S10000x512_0_1
    bcast_S_S10000x512 x1 (mm x0 x2) x3

/-- The host's transpose of the read-out weights. -/
theorem transpose_eq (x4 : (⟨S256x512, .f32⟩ : BufTy).Contents (Elt Ideal)) : val_main_v6 (F := Ideal) x4 = tr x4 := by
  funext i
  obtain ⟨c, j, rfl⟩ : ∃ (c : Fin 512) (j : Fin 256), i = ix2 c j := ⟨i 0, i 1, eq_ix2 i⟩
  rw [val_main_v6_apply]
  exact congrArg x4 (funext fun a => Fin.ext (match a with | ⟨0, _⟩ => rfl | ⟨1, _⟩ => rfl))

/-- The logits are the read-out of the hidden layer. -/
theorem logits_eq (x0 : (⟨S10000x512, .f32⟩ : BufTy).Contents (Elt Ideal)) (x1 : (⟨S10000x10000, .f32⟩ : BufTy).Contents (Elt Ideal)) (x2 : (⟨S512x512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) :
    val_main_v10 (F := Ideal) x0 x1 x2 x3 x4 x5 = lin (hidden x0 x1 x2 x3) (tr x4) (rowOf x5) := by
  unfold val_main_v10 val_main_v7 val_main_v9 val_main_v8
  rw [gc1_eq, transpose_eq]
  exact Cert.MlpHost.host_lin dot_S10000x512_S512x256_S10000x256_1_0_0_1_n_n
    dot_S10000x512_S512x256_S10000x256_1_0_0_1_n_n_wf rfl bcast_S256_S1x256_1 bcast_S1x256_S10000x256_0_1
    (hidden x0 x1 x2 x3) (tr x4) x5

/-- The second result is the softmax of every row of the logits. -/
theorem softmax_eq (x0 : (⟨S10000x512, .f32⟩ : BufTy).Contents (Elt Ideal)) (x1 : (⟨S10000x10000, .f32⟩ : BufTy).Contents (Elt Ideal)) (x2 : (⟨S512x512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) :
    val_main_v21 (F := Ideal) x0 x1 x2 x3 x4 x5 = softmax (val_main_v10 (F := Ideal) x0 x1 x2 x3 x4 x5) := by
  funext i
  obtain ⟨p, j, rfl⟩ : ∃ (p : Fin 10000) (j : Fin 256), i = ix2 p j := ⟨i 0, i 1, eq_ix2 i⟩
  have hred := MaskedMax.hostReduce_maximumf_rows (val_main_v10 (F := Ideal) x0 x1 x2 x3 x4 x5) (val_main_cst (F := Ideal))
    reducesTo_S10000x256_S10000_d1 (by decide) h_S_ Cert.LibRowReduce.ofBits_neg_inf_f32 p
  have hmax : ∀ k : Fin 256, val_main_v15 (F := Ideal) x0 x1 x2 x3 x4 x5 (ix2 p k)
      = Finset.univ.sup fun k' : Fin 256 => val_main_v10 (F := Ideal) x0 x1 x2 x3 x4 x5 (ix2 p k') := fun k => by
    rw [val_main_v15_apply, val_main_v14_apply, val_main_v13_apply, val_main_v12_apply, val_main_cst_0_apply]
    have e : idx_main_v14 (idx_main_v15 (ix2 p k)) = ix1 p := funext fun a => Fin.ext (match a with | ⟨0, _⟩ => rfl)
    rw [e]
    unfold val_main_v11
    rw [hred]
    show max (Ideal.ofBits .f32 0xFF800000#32) _ = _
    rw [Cert.LibRowReduce.ofBits_neg_inf_f32]
    exact max_bot_left _
  have hexp : ∀ k : Fin 256, val_main_v17 (F := Ideal) x0 x1 x2 x3 x4 x5 (ix2 p k)
      = Ideal.exp (val_main_v10 (F := Ideal) x0 x1 x2 x3 x4 x5 (ix2 p k)
          - Finset.univ.sup fun k' : Fin 256 => val_main_v10 (F := Ideal) x0 x1 x2 x3 x4 x5 (ix2 p k')) := fun k => by
    rw [val_main_v17_apply, val_main_v16_apply, hmax k]
    rfl
  have e3 : ∀ k : Fin 256, idx_main_v18 (idx_main_v19 (idx_main_v20 (ix2 p j))) k = ix2 p k := fun k =>
    funext fun a => Fin.ext (match a with | ⟨0, _⟩ => rfl | ⟨1, _⟩ => rfl)
  rw [val_main_v21_apply, val_main_v20_apply, val_main_v19_apply, val_main_v18_apply, val_main_cst_1_apply, hexp j]
  simp only [e3, hexp]
  show Ideal.div _ (Ideal.ofBits .f32 0x00000000#32 + _) = _
  rw [Ideal.ofBits_zero_f32, zero_add]
  rfl

/-- The second result is the layer's class probabilities. -/
theorem out_eq (x0 : (⟨S10000x512, .f32⟩ : BufTy).Contents (Elt Ideal)) (x1 : (⟨S10000x10000, .f32⟩ : BufTy).Contents (Elt Ideal)) (x2 : (⟨S512x512, .f32⟩ : BufTy).Contents (Elt Ideal)) (x3 : (⟨S512, .f32⟩ : BufTy).Contents (Elt Ideal)) (x4 : (⟨S256x512, .f32⟩ : BufTy).Contents (Elt Ideal)) (x5 : (⟨S256, .f32⟩ : BufTy).Contents (Elt Ideal)) :
    val_main_v21 (F := Ideal) x0 x1 x2 x3 x4 x5 = out x0 x1 x2 x3 x4 x5 :=
  (softmax_eq x0 x1 x2 x3 x4 x5).trans (congrArg softmax (logits_eq x0 x1 x2 x3 x4 x5))

end Cert.ReferenceIdeal.RefValue

end
-- ==== Proof.lean ====
/-
  A graph-convolution layer with a softmax read-out, computed by two pipelined kernels, against its plain
  reference: the two idealized programs end with equal results as extended reals.
  With x the features, A the adjacency matrix, W₁, b₁ the layer's weights and bias and W₂, b₂ the read-out's, both
  programs compute  hidden = max (A · (x · W₁) + b₁, 0)  and  out = softmax of each row of hidden · W₂ᵀ + b₂.
  The kernel program computes the support x · W₁ a thousand rows at a time, then the two results four hundred rows
  at a time; a row of each result depends on the same row of the adjacency matrix only, so the blocks are the rows of
  the whole-array functions. The reference computes the same sums in the same nesting, so no law of arithmetic
  beyond the definitions is needed and the inputs' finiteness is not used. A change of float format is the identity
  on extended reals, so the kernel's narrowed operands are the operands; the idealization rewrote nothing.
-/
import proofs.«110309_g65816078844311_cont_sun_m_909_18_alg».proof.Defs
import proofs.«110309_g65816078844311_cont_sun_m_909_18_alg».proof.Proof.Gen.Kernel
import proofs.«110309_g65816078844311_cont_sun_m_909_18_alg».proof.Proof.Gen.Kernel.Frame
import proofs.«110309_g65816078844311_cont_sun_m_909_18_alg».proof.Proof.Gen.KernelIdeal
import proofs.«110309_g65816078844311_cont_sun_m_909_18_alg».proof.Proof.Gen.KernelIdeal.Frame
import proofs.«110309_g65816078844311_cont_sun_m_909_18_alg».proof.Proof.Gen.ReferenceIdeal
import proofs.«110309_g65816078844311_cont_sun_m_909_18_alg».proof.Proof.Gen.ReferenceIdeal.Run
import proofs.«110309_g65816078844311_cont_sun_m_909_18_alg».proof.Proof.Gen.ReferenceIdeal.Read
import proofs.«110309_g65816078844311_cont_sun_m_909_18_alg».proof.Proof.Gen.Pre_finite_inputs
import proofs.«110309_g65816078844311_cont_sun_m_909_18_alg».proof.Proof.KernelResult
import proofs.«110309_g65816078844311_cont_sun_m_909_18_alg».proof.Proof.RefValue
import Idealize.ShloMosaic.Adequacy
import Idealize.ShloMosaic.Init

noncomputable section

namespace Cert.Proof

open Idealize.ShloMosaic Idealize.SL.Sem Cert.Mlp Cert.GcnSm

/-- The printed kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the hidden layer and the class probabilities of the same arguments. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v5_eq, Cert.ReferenceIdeal.RefValue.gc1_eq,
      (hagree c).1, (hagree c).2.1, (hagree c).2.2.1, (hagree c).2.2.2.1]
  · rw [(h c).2.1, Cert.ReferenceIdeal.Read.val_main_v21_eq, Cert.ReferenceIdeal.RefValue.out_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
